-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256 : Shape := ⟨3, ![8, 256, 256]⟩
abbrev S8x512x256 : Shape := ⟨3, ![8, 512, 256]⟩
abbrev S256x256 : Shape := ⟨2, ![256, 256]⟩
abbrev S256 : Shape := ⟨1, ![256]⟩
abbrev S_ : Shape := ⟨0, ![]⟩

class Facts : Prop where
  bcast_S_S8x256x256 : S_.BroadcastsInDim S8x256x256 (![] : Fin 0 → Fin S8x256x256.rank)
  reducesTo_S8x256x256_S_d0_1_2 : S8x256x256.ReducesTo [0, 1, 2] S_
  h_S_ : 0 < S_.numel
  bcast_S_S8x512x256 : S_.BroadcastsInDim S8x512x256 (![] : Fin 0 → Fin S8x512x256.rank)
  reducesTo_S8x512x256_S_d0_1_2 : S8x512x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8x256x256 .f32) (main_arg1 : FVec F S8x512x256 .f32) (main_arg2 : FVec F S256x256 .f32) (main_arg3 : FVec F S256 .f32) (main_arg4 : FVec F S256x256 .f32) (main_arg5 : FVec F S256 .f32) : IVec S_ 1 :=
  let main_v0 : FVec F S8x256x256 .f32 := Host.absf main_arg0
  let main_cst : FVec F S_ .f32 := constant S_ .f32 0x7F800000#32
  let main_v1 : FVec F S8x256x256 .f32 := broadcastInDim S8x256x256 ![] bcast_S_S8x256x256 main_cst
  let main_v2 : IVec S8x256x256 1 := cmpf .olt main_v0 main_v1
  let main_c : IVec S_ 1 := constantI S_ 1 1#1
  let main_v3 : IVec S_ 1 := (fun x v => Host.reduce IntOp.andi x v reducesTo_S8x256x256_S_d0_1_2 h_S_) main_v2 main_c
  let main_v4 : FVec F S8x512x256 .f32 := Host.absf main_arg1
  let main_cst_0 : FVec F S_ .f32 := constant S_ .f32 0x7F800000#32
  let main_v5 : FVec F S8x512x256 .f32 := broadcastInDim S8x512x256 ![] bcast_S_S8x512x256 main_cst_0
  let main_v6 : IVec S8x512x256 1 := cmpf .olt main_v4 main_v5
  let main_c_1 : IVec S_ 1 := constantI S_ 1 1#1
  let main_v7 : IVec S_ 1 := (fun x v => Host.reduce IntOp.andi x v reducesTo_S8x512x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8x256x256 : Shape := ⟨3, ![8, 256, 256]⟩
abbrev S8x512x256 : Shape := ⟨3, ![8, 512, 256]⟩
abbrev S256x256 : Shape := ⟨2, ![256, 256]⟩
abbrev S256 : Shape := ⟨1, ![256]⟩
abbrev S1x256 : Shape := ⟨2, ![1, 256]⟩
abbrev S8x256x512 : Shape := ⟨3, ![8, 256, 512]⟩
abbrev S1x128x256 : Shape := ⟨3, ![1, 128, 256]⟩
abbrev S1x512x256 : Shape := ⟨3, ![1, 512, 256]⟩
abbrev S1x128x512 : Shape := ⟨3, ![1, 128, 512]⟩
abbrev S1x512x128 : Shape := ⟨3, ![1, 512, 128]⟩
abbrev S256x128 : Shape := ⟨2, ![256, 128]⟩
abbrev S256x512 : Shape := ⟨2, ![256, 512]⟩
abbrev S128x512 : Shape := ⟨2, ![128, 512]⟩
abbrev S128x256 : Shape := ⟨2, ![128, 256]⟩
abbrev S512x256 : Shape := ⟨2, ![512, 256]⟩
abbrev S8x128 : Shape := ⟨2, ![8, 128]⟩
abbrev S8x512 : Shape := ⟨2, ![8, 512]⟩
abbrev S8x128x1 : Shape := ⟨3, ![8, 128, 1]⟩
abbrev S8x1x512 : Shape := ⟨3, ![8, 1, 512]⟩
abbrev S8x128x512 : Shape := ⟨3, ![8, 128, 512]⟩
abbrev S128 : Shape := ⟨1, ![128]⟩
abbrev S128x1 : Shape := ⟨2, ![128, 1]⟩
abbrev S512x128 : Shape := ⟨2, ![512, 128]⟩

abbrev nBuf : Space → Nat
  | .hbm => 10
  | .vmem => 15
  | .smem => 0
  | _ => 0

abbrev bufTy : (tb : Table) → Fin (tcTables nBuf tb) → BufTy
  | .hbm, ⟨0, _⟩ => ⟨S8x256x256, .f32⟩
  | .hbm, ⟨1, _⟩ => ⟨S8x512x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S1x256, .f32⟩
  | .hbm, ⟨8, _⟩ => ⟨S8x256x512, .f32⟩
  | .hbm, ⟨9, _⟩ => ⟨S8x512x256, .f32⟩
  | .local _ .vmem, ⟨0, _⟩ => ⟨S1x128x256, .f32⟩
  | .local _ .vmem, ⟨1, _⟩ => ⟨S1x128x256, .f32⟩
  | .local _ .vmem, ⟨2, _⟩ => ⟨S1x512x256, .f32⟩
  | .local _ .vmem, ⟨3, _⟩ => ⟨S1x512x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x128x512, .f32⟩
  | .local _ .vmem, ⟨9, _⟩ => ⟨S1x128x512, .f32⟩
  | .local _ .vmem, ⟨10, _⟩ => ⟨S1x512x128, .f32⟩
  | .local _ .vmem, ⟨11, _⟩ => ⟨S1x512x128, .f32⟩
  | .local _ .vmem, ⟨12, _⟩ => ⟨S256x128, .f32⟩
  | .local _ .vmem, ⟨13, _⟩ => ⟨S256x512, .f32⟩
  | .local _ .vmem, ⟨14, _⟩ => ⟨S128x512, .f32⟩
  | _, _ => ⟨S8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c32_i32 : BitVec 32 := 32#32
  let v32 : BitVec 32 := Scalar.addi c0_i32 c32_i32
  let c1_i32 : BitVec 32 := 1#32
  ⟨c0_i32, v32, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32 : BitVec 32 := 8#32
  let v54 : BitVec 32 := Scalar.muli arg13 c8_i32
  v54
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c8_i32 : BitVec 32 := 8#32
  let v54 : BitVec 32 := Scalar.muli arg13 c8_i32
  let v55 : BitVec 32 := v54
  let v56 : Index := Scalar.indexCast v55
  let c0_33 : Index := 0#32
  ![v56.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c8_i32 : BitVec 32 := 8#32
  let v54 : BitVec 32 := Scalar.muli arg13 c8_i32
  let v55 : BitVec 32 := v54
  let v58 : Index := Scalar.indexCast v55
  let c0_34 : Index := 0#32
  ![v58.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S256_S1x256 : S256.ShapeCasts S1x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1x256_S128x256 : S1x256.Broadcasts S128x256
  broadcasts_S1x256_S512x256 : S1x256.Broadcasts S512x256
  transposes_S128x256_p1_0_S256x128 : S128x256.Transposes [1, 0] S256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S512x256_p1_0_S256x512 : S512x256.Transposes [1, 0] S256x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  h_S8x128 : 0 < S8x128.numel
  h_S8x512 : 0 < S8x512.numel
  shapeCasts_S8x128_S8x128x1 : S8x128.ShapeCasts S8x128x1
  shapeCasts_S8x512_S8x1x512 : S8x512.ShapeCasts S8x1x512
  broadcasts_S8x128x1_S8x128x512 : S8x128x1.Broadcasts S8x128x512
  broadcasts_S8x1x512_S8x128x512 : S8x1x512.Broadcasts S8x128x512
  reduces_S8x128x512_S128x512 : S8x128x512.Reduces [0] S128x512
  reduces_S128x512_S128 : S128x512.Reduces [1] S128
  shapeCasts_S128_S128x1 : S128.ShapeCasts S128x1
  broadcasts_S128x1_S128x512 : S128x1.Broadcasts S128x512
  concatenates_S128x256_S128x256_S128x512_d1 : Shape.Concatenates [S128x256, S128x256] S128x512 1
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  transposes_S128x512_p1_0_S512x128 : S128x512.Transposes [1, 0] S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S128x256_S256x256_S128x256_1_0_0_1_n_n_wf : DotDims.WF S128x256 S256x256 S128x256 [1] [0] [0] [1] [] []
  dot_S512x256_S256x256_S512x256_1_0_0_1_n_n_wf : DotDims.WF S512x256 S256x256 S512x256 [1] [0] [0] [1] [] []
  dot_S128x512_S512x256_S128x256_1_0_0_1_n_n_wf : DotDims.WF S128x512 S512x256 S128x256 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x128.size a ≤ S256x128.size a
  k0_off2_inb : ∀ k0_t1 : Fin k0_t1_loop.trips, ∀ a, (k0_off2 k0_t1) a + S8x512.size a ≤ S256x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S8x256x256.size a
  hwx0_0 : ∀ i : grid0.Coords, EltTy.bits .f32 = 32 ∨ (Rect.block (s := S8x256x256) S1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S8x512x256.size a
  hwx0_1 : ∀ i : grid0.Coords, EltTy.bits .f32 = 32 ∨ (Rect.block (s := S8x512x256) S1x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x512.size a ≤ S8x256x512.size a
  hwx0_6 : ∀ i : grid0.Coords, EltTy.bits .f32 = 32 ∨ (Rect.block (s := S8x256x512) S1x128x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x128.size a ≤ S8x512x256.size a
  hwx0_7 : ∀ i : grid0.Coords, EltTy.bits .f32 = 32 ∨ (Rect.block (s := S8x512x256) S1x512x128.size (cc0_transform_7 i) (hinb0_7 i)).WholeWords (EltTy.packing .f32)

variable [Facts₀]

def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf

abbrev win0_0 : Pipeline.Window sig grid0 :=
  Pipeline.Window.ofSpec (Memref.whole main_arg0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S1x128x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S1x512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x256 : Shape := ⟨3, ![8, 256, 256]⟩
abbrev S8x512x256 : Shape := ⟨3, ![8, 512, 256]⟩
abbrev S256x256 : Shape := ⟨2, ![256, 256]⟩
abbrev S256 : Shape := ⟨1, ![256]⟩
abbrev S1x1x256 : Shape := ⟨3, ![1, 1, 256]⟩
abbrev S8x256x1x256 : Shape := ⟨4, ![8, 256, 1, 256]⟩
abbrev S8x1x512x256 : Shape := ⟨4, ![8, 1, 512, 256]⟩
abbrev S8x256x512x256 : Shape := ⟨4, ![8, 256, 512, 256]⟩
abbrev S_ : Shape := ⟨0, ![]⟩
abbrev S8x256x512 : Shape := ⟨3, ![8, 256, 512]⟩
abbrev S8x256 : Shape := ⟨2, ![8, 256]⟩
abbrev S8x256x1 : Shape := ⟨3, ![8, 256, 1]⟩

abbrev nBuf : Space → Nat
  | .hbm => 39
  | .vmem => 0
  | .smem => 0
  | _ => 0

abbrev bufTy : (tb : Table) → Fin (tcTables nBuf tb) → BufTy
  | .hbm, ⟨0, _⟩ => ⟨S8x256x256, .f32⟩
  | .hbm, ⟨1, _⟩ => ⟨S8x512x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S8x256x256, .f32⟩
  | .hbm, ⟨7, _⟩ => ⟨S1x1x256, .f32⟩
  | .hbm, ⟨8, _⟩ => ⟨S8x256x256, .f32⟩
  | .hbm, ⟨9, _⟩ => ⟨S8x256x256, .f32⟩
  | .hbm, ⟨10, _⟩ => ⟨S8x512x256, .f32⟩
  | .hbm, ⟨11, _⟩ => ⟨S1x1x256, .f32⟩
  | .hbm, ⟨12, _⟩ => ⟨S8x512x256, .f32⟩
  | .hbm, ⟨13, _⟩ => ⟨S8x512x256, .f32⟩
  | .hbm, ⟨14, _⟩ => ⟨S8x256x1x256, .f32⟩
  | .hbm, ⟨15, _⟩ => ⟨S8x1x512x256, .f32⟩
  | .hbm, ⟨16, _⟩ => ⟨S8x256x512x256, .f32⟩
  | .hbm, ⟨17, _⟩ => ⟨S8x256x512x256, .f32⟩
  | .hbm, ⟨18, _⟩ => ⟨S8x256x512x256, .f32⟩
  | .hbm, ⟨19, _⟩ => ⟨S8x256x512x256, .f32⟩
  | .hbm, ⟨20, _⟩ => ⟨S_, .f32⟩
  | .hbm, ⟨21, _⟩ => ⟨S8x256x512, .f32⟩
  | .hbm, ⟨22, _⟩ => ⟨S_, .f32⟩
  | .hbm, ⟨23, _⟩ => ⟨S8x256, .f32⟩
  | .hbm, ⟨24, _⟩ => ⟨S_, .f32⟩
  | .hbm, ⟨25, _⟩ => ⟨S8x256, .f32⟩
  | .hbm, ⟨26, _⟩ => ⟨S8x256, .f32⟩
  | .hbm, ⟨27, _⟩ => ⟨S8x256x1, .f32⟩
  | .hbm, ⟨28, _⟩ => ⟨S8x256x512, .f32⟩
  | .hbm, ⟨29, _⟩ => ⟨S8x256x512, .f32⟩
  | .hbm, ⟨30, _⟩ => ⟨S8x256x512, .f32⟩
  | .hbm, ⟨31, _⟩ => ⟨S_, .f32⟩
  | .hbm, ⟨32, _⟩ => ⟨S8x256, .f32⟩
  | .hbm, ⟨33, _⟩ => ⟨S8x256x1, .f32⟩
  | .hbm, ⟨34, _⟩ => ⟨S8x256x512, .f32⟩
  | .hbm, ⟨35, _⟩ => ⟨S8x256x512, .f32⟩
  | .hbm, ⟨36, _⟩ => ⟨S8x256x256, .f32⟩
  | .hbm, ⟨37, _⟩ => ⟨S8x256x512, .f32⟩
  | .hbm, ⟨38, _⟩ => ⟨S8x512x256, .f32⟩
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x256x256_0_1_2 : S1x1x256.BroadcastsInDim S8x256x256 (![0, 1, 2] : Fin 3 → Fin S8x256x256.rank)
  bcast_S1x1x256_S8x512x256_0_1_2 : S1x1x256.BroadcastsInDim S8x512x256 (![0, 1, 2] : Fin 3 → Fin S8x512x256.rank)
  bcast_S8x256x256_S8x256x1x256_0_1_3 : S8x256x256.BroadcastsInDim S8x256x1x256 (![0, 1, 3] : Fin 3 → Fin S8x256x1x256.rank)
  bcast_S8x512x256_S8x1x512x256_0_2_3 : S8x512x256.BroadcastsInDim S8x1x512x256 (![0, 2, 3] : Fin 3 → Fin S8x1x512x256.rank)
  bcast_S8x256x1x256_S8x256x512x256_0_1_2_3 : S8x256x1x256.BroadcastsInDim S8x256x512x256 (![0, 1, 2, 3] : Fin 4 → Fin S8x256x512x256.rank)
  bcast_S8x1x512x256_S8x256x512x256_0_1_2_3 : S8x1x512x256.BroadcastsInDim S8x256x512x256 (![0, 1, 2, 3] : Fin 4 → Fin S8x256x512x256.rank)
  reducesTo_S8x256x512x256_S8x256x512_d3 : S8x256x512x256.ReducesTo [3] S8x256x512
  h_S_ : 0 < S_.numel
  reducesTo_S8x256x512_S8x256_d2 : S8x256x512.ReducesTo [2] S8x256
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  bcast_S8x256x1_S8x256x512_0_1_2 : S8x256x1.BroadcastsInDim S8x256x512 (![0, 1, 2] : Fin 3 → Fin S8x256x512.rank)
  concatenates_S8x256x256_S8x256x256_S8x256x512_d2 : Shape.Concatenates [S8x256x256, S8x256x256] S8x256x512 2
  transposes_S8x256x512_S8x512x256_0_2_1 : S8x256x512.Transposes [0, 2, 1] S8x512x256
  dot_S8x256x256_S256x256_S8x256x256_2_0_01_1_n_n_wf : DotDims.WF S8x256x256 S256x256 S8x256x256 [2] [0] [0, 1] [1] [] []
  dot_S8x512x256_S256x256_S8x512x256_2_0_01_1_n_n_wf : DotDims.WF S8x512x256 S256x256 S8x512x256 [2] [0] [0, 1] [1] [] []
  dot_S8x256x512_S8x512x256_S8x256x256_2_1_1_2_0_0_wf : DotDims.WF S8x256x512 S8x512x256 S8x256x256 [2] [1] [1] [2] [0] [0]

variable [Facts₀]

def dot_S8x256x256_S256x256_S8x256x256_2_0_01_1_n_n : DotDims S8x256x256 S256x256 S8x256x256 where
  lhsContracting := [2]
  rhsContracting := [0]
  lhsNonContracting := [0, 1]
  rhsNonContracting := [1]
  lhsBatch := []
  rhsBatch := []
  wf := dot_S8x256x256_S256x256_S8x256x256_2_0_01_1_n_n_wf
def dot_S8x512x256_S256x256_S8x512x256_2_0_01_1_n_n : DotDims S8x512x256 S256x256 S8x512x256 where
  lhsContracting := [2]
  rhsContracting := [0]
  lhsNonContracting := [0, 1]
  rhsNonContracting := [1]
  lhsBatch := []
  rhsBatch := []
  wf := dot_S8x512x256_S256x256_S8x512x256_2_0_01_1_n_n_wf
def dot_S8x256x512_S8x512x256_S8x256x256_2_1_1_2_0_0 : DotDims S8x256x512 S8x512x256 S8x256x256 where
  lhsContracting := [2]
  rhsContracting := [1]
  lhsNonContracting := [1]
  rhsNonContracting := [2]
  lhsBatch := [0]
  rhsBatch := [0]
  wf := dot_S8x256x512_S8x512x256_S8x256x256_2_1_1_2_0_0_wf

class Facts : Prop extends Facts₀ where

variable [Facts]
-- ==== Proof.Spec.lean ====
/-
  Additive (Bahdanau) attention over the extended reals, index by index.

  For a batch `b`, a query row `q` and a value row `v`, with the dense layers
  `qp e = (∑ d, Q[b,q,d] · W1[d,e]) + b1[e]` and `vp e = (∑ d, V[b,v,d] · W2[d,e]) + b2[e]`, the score is
  `s[b,q,v] = ∑ e, tanh (qp e + vp e)`; the alignment is the softmax of a score row, taken with the row's maximum
  subtracted, `a[b,q,v] = exp (s[b,q,v] − max_v' s[b,q,v']) / ∑ v', exp (s[b,q,v'] − max …)`; the context is
  `∑ v, a[b,q,v] · V[b,v,j]`. The first result holds the context in its columns `0 … 255` and the query itself in its
  columns `256 … 511`; the second is the alignment with its last two axes exchanged.

  Everything here is a function of coordinates of literal extents, so that each program's result, read at an index, can
  be compared with it term by term. No law of the extended reals beyond commutativity and associativity of the sum is
  needed to meet it from either side, so no finiteness of the inputs is ever used.
-/
import Idealize.ShloMosaic.PureOps.Ideal
import Idealize.ShloMosaic.Lib.ValueIdx

noncomputable section

namespace Cert.Additive

open Idealize.ShloMosaic Idealize.ShloMosaic.ValueIdx

/-- One output of a dense layer: the dot product of a 256-vector with column `e` of the weight, plus the bias at `e`. -/
def dense (x : Fin 256 → EReal) (W : (⟨2, ![256, 256]⟩ : Shape).Idx → EReal) (bias : (⟨1, ![256]⟩ : Shape).Idx → EReal)
    (e : Fin 256) : EReal :=
  (∑ d : Fin 256, x d * W (ix2 d e)) + bias (ix1 e)

/-- The additive score of a projected query row and a projected value row: the sum over the features of `tanh` of their sum. -/
def addScore (qp vp : Fin 256 → EReal) : EReal :=
  ∑ e : Fin 256, Ideal.tanh (qp e + vp e)

/-- The maximum of a row of 512 scores (from `⊥`, the empty maximum). -/
def rowMax (s : Fin 512 → EReal) : EReal :=
  (Finset.univ : Finset (Fin 512)).fold max ⊥ s

/-- The softmax of a row of 512 scores at `v`, with the row's maximum subtracted before the exponential. -/
def softmaxRow (s : Fin 512 → EReal) (v : Fin 512) : EReal :=
  Ideal.div (Ideal.exp (s v - rowMax s)) (∑ v' : Fin 512, Ideal.exp (s v' - rowMax s))

section Arrays

variable (Q : (⟨3, ![8, 256, 256]⟩ : Shape).Idx → EReal) (V : (⟨3, ![8, 512, 256]⟩ : Shape).Idx → EReal)
  (W1 : (⟨2, ![256, 256]⟩ : Shape).Idx → EReal) (b1 : (⟨1, ![256]⟩ : Shape).Idx → EReal)
  (W2 : (⟨2, ![256, 256]⟩ : Shape).Idx → EReal) (b2 : (⟨1, ![256]⟩ : Shape).Idx → EReal)

/-- The projected query row `(b, q)` at feature `e`. -/
def qproj (b : Fin 8) (q : Fin 256) (e : Fin 256) : EReal := dense (fun d => Q (ix3 b q d)) W1 b1 e

/-- The projected value row `(b, v)` at feature `e`. -/
def vproj (b : Fin 8) (v : Fin 512) (e : Fin 256) : EReal := dense (fun d => V (ix3 b v d)) W2 b2 e

/-- The score of query row `q` against value row `v` in batch `b`. -/
def score (b : Fin 8) (q : Fin 256) (v : Fin 512) : EReal :=
  addScore (qproj Q W1 b1 b q) (vproj V W2 b2 b v)

/-- The alignment: the softmax of the score row `(b, q)` at `v`. -/
def align (b : Fin 8) (q : Fin 256) (v : Fin 512) : EReal :=
  softmaxRow (score Q V W1 b1 W2 b2 b q) v

/-- The context: the alignment row `(b, q)` against column `j` of the values of batch `b`. -/
def context (b : Fin 8) (q : Fin 256) (j : Fin 256) : EReal :=
  ∑ v : Fin 512, align Q V W1 b1 W2 b2 b q v * V (ix3 b v j)

/-- The first result at `(b, q, j)`: the context in columns `0 … 255`, the query in columns `256 … 511`. -/
def contextQuery (b : Fin 8) (q : Fin 256) (j : Fin 512) : EReal :=
  if h : j.val < 256 then context Q V W1 b1 W2 b2 b q ⟨j.val, h⟩
  else Q (ix3 b q ⟨j.val - 256, by have := j.isLt; omega⟩)

/-- The first result as an array. -/
def outContext : (⟨3, ![8, 256, 512]⟩ : Shape).Idx → EReal :=
  fun i => contextQuery Q V W1 b1 W2 b2 (i 0) (i 1) (i 2)

/-- The second result as an array: the alignment with its value axis before its query axis. -/
def outAlign : (⟨3, ![8, 512, 256]⟩ : Shape).Idx → EReal :=
  fun i => align Q V W1 b1 W2 b2 (i 0) (i 2) (i 1)

theorem outContext_ix3 (b : Fin 8) (q : Fin 256) (j : Fin 512) :
    outContext Q V W1 b1 W2 b2 (ix3 b q j) = contextQuery Q V W1 b1 W2 b2 b q j := rfl

theorem outAlign_ix3 (b : Fin 8) (v : Fin 512) (q : Fin 256) :
    outAlign Q V W1 b1 W2 b2 (ix3 b v q) = align Q V W1 b1 W2 b2 b q v := rfl

end Arrays

end Cert.Additive

end
-- ==== Proof.RefValue.lean ====
/-
  The reference's two results, read at an index, are the specification's functions of its arguments.

  Stage by stage: each dense layer's output at `(b, r, e)` is the dot product of row `(b, r)` with column `e` of the
  weight plus the bias at `e`; the score at `(b, q, v)` is the sum over the features of `tanh` of the two projections'
  sum, the reduction's zero initial value dropping out; the row maximum is the fold of `max` from `⊥` over the value
  axis, which the further `max` with `⊥` leaves as it is; the alignment is the exponential of the shifted score over the
  sum of the shifted row's exponentials; the context is the alignment row against a column of the values. The first result
  joins the context and the query along the last axis, so a column below 256 reads the context and a column from 256 on
  reads the query at that column less 256; the second result is the alignment with its last two axes exchanged.
-/
import proofs.«138438_j56710748176622_2_alg».proof.Proof.RefRead
import proofs.«138438_j56710748176622_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Cert.Additive
open Idealize.ShloMosaic Idealize.ShloMosaic.ValueIdx Idealize.ShloMosaic.TcCoe

/-- The word `0xFF800000` is minus infinity, the least extended real. -/
theorem ofBits_negInf : Ideal.ofBits .f32 0xFF800000#32 = ⊥ := by simp [Ideal.ofBits, Ideal.ieee]

variable (x0 : (⟨S8x256x256, .f32⟩ : BufTy).Contents (Elt Ideal)) (x1 : (⟨S8x512x256, .f32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))

/-- The query's dense layer at `(b, q, e)`. -/
theorem qproj_eq (b : Fin 8) (q e : Fin 256) :
    val_main_v3 (F := Ideal) x0 x2 x3 (ix3 b q e) = qproj x0 x2 x3 b q e := by
  have el : ∀ k : Fin 256, lidx_main_v0 (ix3 b q e) k = ix3 b q k := fun k => funext fun a => Fin.ext (by
    match a with | ⟨0, _⟩ => rfl | ⟨1, _⟩ => rfl | ⟨2, _⟩ => rfl)
  have er : ∀ k : Fin 256, ridx_main_v0 (ix3 b q e) k = ix2 k e := fun k => funext fun a => Fin.ext (by
    match a with | ⟨0, _⟩ => rfl | ⟨1, _⟩ => rfl)
  have eb : idx_main_v1 (idx_main_v2 (ix3 b q e)) = ix1 e := funext fun a => Fin.ext (by
    match a with | ⟨0, _⟩ => rfl)
  rw [val_main_v3_apply, val_main_v0_apply, val_main_v2_apply, val_main_v1_apply, eb]
  simp only [el, er]
  rfl

/-- The values' dense layer at `(b, v, e)`. -/
theorem vproj_eq (b : Fin 8) (v : Fin 512) (e : Fin 256) :
    val_main_v7 (F := Ideal) x1 x4 x5 (ix3 b v e) = vproj x1 x4 x5 b v e := by
  have el : ∀ k : Fin 256, lidx_main_v4 (ix3 b v e) k = ix3 b v k := fun k => funext fun a => Fin.ext (by
    match a with | ⟨0, _⟩ => rfl | ⟨1, _⟩ => rfl | ⟨2, _⟩ => rfl)
  have er : ∀ k : Fin 256, ridx_main_v4 (ix3 b v e) k = ix2 k e := fun k => funext fun a => Fin.ext (by
    match a with | ⟨0, _⟩ => rfl | ⟨1, _⟩ => rfl)
  have eb : idx_main_v5 (idx_main_v6 (ix3 b v e)) = ix1 e := funext fun a => Fin.ext (by
    match a with | ⟨0, _⟩ => rfl)
  rw [val_main_v7_apply, val_main_v4_apply, val_main_v6_apply, val_main_v5_apply, eb]
  simp only [el, er]
  rfl

/-- The score at `(b, q, v)`: the sum over the features, from a zero initial value. -/
theorem score_eq (b : Fin 8) (q : Fin 256) (v : Fin 512) :
    val_main_v14 (F := Ideal) x0 x1 x2 x3 x4 x5 (ix3 b q v) = score x0 x1 x2 x3 x4 x5 b q v := by
  have eq : ∀ k : Fin 256, idx_main_v8 (idx_main_v10 (idx_main_v14 (ix3 b q v) k)) = ix3 b q k := fun k =>
    funext fun a => Fin.ext (by match a with | ⟨0, _⟩ => rfl | ⟨1, _⟩ => rfl | ⟨2, _⟩ => rfl)
  have ev : ∀ k : Fin 256, idx_main_v9 (idx_main_v11 (idx_main_v14 (ix3 b q v) k)) = ix3 b v k := fun k =>
    funext fun a => Fin.ext (by match a with | ⟨0, _⟩ => rfl | ⟨1, _⟩ => rfl | ⟨2, _⟩ => rfl)
  rw [val_main_v14_apply, val_main_cst_apply]
  show (Ideal.ofBits .f32 0x00000000#32 : EReal) + _ = _
  rw [Ideal.ofBits_zero_f32, zero_add]
  unfold score addScore
  refine Finset.sum_congr rfl fun k _ => ?_
  rw [val_main_v13_apply, val_main_v12_apply, val_main_v10_apply, val_main_v8_apply, val_main_v11_apply, val_main_v9_apply,
    eq k, ev k, qproj_eq, vproj_eq]
  rfl

/-- The row maximum at `(b, q)`: the fold of `max` from `⊥` over the value axis; the `max` with `⊥` changes nothing. -/
theorem rowMax_eq (b : Fin 8) (q : Fin 256) :
    val_main_v17 (F := Ideal) x0 x1 x2 x3 x4 x5 (ix2 b q) = rowMax (score x0 x1 x2 x3 x4 x5 b q) := by
  have hR : S8x256x512.Reduces [2] S8x256 := by decide
  rw [val_main_v17_apply, val_main_v16_apply, val_main_cst_1_apply]
  unfold val_main_v15
  rw [Host.reduce_eq_fold_single FloatOps.maximumf _ _ reducesTo_S8x256x512_S8x256_d2 hR h_S_, val_main_cst_0_apply]
  have hf : (val_main_v14 (F := Ideal) x0 x1 x2 x3 x4 x5 ∘ hR.lift (ix2 b q)) = score x0 x1 x2 x3 x4 x5 b q := funext fun v => by
    have e : hR.lift (ix2 b q) v = ix3 b q v := funext fun a => Fin.ext (by
      match a with | ⟨0, _⟩ => rfl | ⟨1, _⟩ => rfl | ⟨2, _⟩ => rfl)
    show val_main_v14 (F := Ideal) x0 x1 x2 x3 x4 x5 (hR.lift (ix2 b q) v) = _
    rw [e]; exact score_eq x0 x1 x2 x3 x4 x5 b q v
  rw [hf]
  show max (Ideal.ofBits .f32 0xFF800000#32) ((Finset.univ : Finset (Fin 512)).fold max (Ideal.ofBits .f32 0xFF800000#32) _) = _
  rw [ofBits_negInf]
  exact max_eq_right bot_le

/-- The exponential of the shifted score at `(b, q, v)`. -/
theorem expShift_eq (b : Fin 8) (q : Fin 256) (v : Fin 512) :
    val_main_v21 (F := Ideal) x0 x1 x2 x3 x4 x5 (ix3 b q v)
      = Ideal.exp (score x0 x1 x2 x3 x4 x5 b q v - rowMax (score x0 x1 x2 x3 x4 x5 b q)) := by
  have e : idx_main_v18 (idx_main_v19 (ix3 b q v)) = ix2 b q := funext fun a => Fin.ext (by
    match a with | ⟨0, _⟩ => rfl | ⟨1, _⟩ => rfl)
  rw [val_main_v21_apply, val_main_v20_apply, val_main_v19_apply, val_main_v18_apply, e, score_eq, rowMax_eq]
  rfl

/-- The alignment at `(b, q, v)`. -/
theorem align_eq (b : Fin 8) (q : Fin 256) (v : Fin 512) :
    val_main_v25 (F := Ideal) x0 x1 x2 x3 x4 x5 (ix3 b q v) = align x0 x1 x2 x3 x4 x5 b q v := by
  have e : idx_main_v23 (idx_main_v24 (ix3 b q v)) = ix2 b q := funext fun a => Fin.ext (by
    match a with | ⟨0, _⟩ => rfl | ⟨1, _⟩ => rfl)
  have ek : ∀ k : Fin 512, idx_main_v22 (ix2 b q) k = ix3 b q k := fun k => funext fun a => Fin.ext (by
    match a with | ⟨0, _⟩ => rfl | ⟨1, _⟩ => rfl | ⟨2, _⟩ => rfl)
  rw [val_main_v25_apply, val_main_v24_apply, val_main_v23_apply, e, val_main_v22_apply, val_main_cst_2_apply, expShift_eq]
  have hs : (∑ k : Fin 512, val_main_v21 (F := Ideal) x0 x1 x2 x3 x4 x5 (idx_main_v22 (ix2 b q) k))
      = ∑ k : Fin 512, Ideal.exp (score x0 x1 x2 x3 x4 x5 b q k - rowMax (score x0 x1 x2 x3 x4 x5 b q)) :=
    Finset.sum_congr rfl fun k _ => by rw [ek k, expShift_eq]
  rw [hs]
  show Ideal.div _ (Ideal.ofBits .f32 0x00000000#32 + _) = _
  rw [Ideal.ofBits_zero_f32, zero_add]
  rfl

/-- The context at `(b, q, j)`. -/
theorem context_eq (b : Fin 8) (q j : Fin 256) :
    val_main_v26 (F := Ideal) x0 x1 x2 x3 x4 x5 (ix3 b q j) = context x0 x1 x2 x3 x4 x5 b q j := by
  have el : ∀ k : Fin 512, lidx_main_v26 (ix3 b q j) k = ix3 b q k := fun k => funext fun a => Fin.ext (by
    match a with | ⟨0, _⟩ => rfl | ⟨1, _⟩ => rfl | ⟨2, _⟩ => rfl)
  have er : ∀ k : Fin 512, ridx_main_v26 (ix3 b q j) k = ix3 b k j := fun k => funext fun a => Fin.ext (by
    match a with | ⟨0, _⟩ => rfl | ⟨1, _⟩ => rfl | ⟨2, _⟩ => rfl)
  rw [val_main_v26_apply]
  refine Finset.sum_congr rfl fun k _ => ?_
  rw [el k, er k, align_eq]

/-- The first result at `(b, q, j)`: the context below column 256, the query from there on. -/
theorem contextQuery_eq (b : Fin 8) (q : Fin 256) (j : Fin 512) :
    val_main_v27 (F := Ideal) x0 x1 x2 x3 x4 x5 (ix3 b q j) = contextQuery x0 x1 x2 x3 x4 x5 b q j := by
  unfold val_main_v27 contextQuery
  by_cases h : j.val < 256
  · rw [dif_pos h]
    refine (concatenate_pair_apply_left (t := S8x256x512) (s₁ := S8x256x256) (s₂ := S8x256x256) (2 : Fin 3) _ _
      concatenates_S8x256x256_S8x256x256_S8x256x512_d2 (ix3 b q j) rfl
      (ix3 b q (⟨j.val, h⟩ : Fin 256)) (fun a => by match a with | ⟨0, _⟩ => rfl | ⟨1, _⟩ => rfl | ⟨2, _⟩ => rfl)).trans ?_
    exact context_eq x0 x1 x2 x3 x4 x5 b q ⟨j.val, h⟩
  · rw [dif_neg h]
    have hj := j.isLt
    exact concatenate_pair_apply_right (t := S8x256x512) (s₁ := S8x256x256) (s₂ := S8x256x256) (2 : Fin 3) _ _
      concatenates_S8x256x256_S8x256x256_S8x256x512_d2 (ix3 b q j) rfl rfl
      (ix3 b q (⟨j.val - 256, by omega⟩ : Fin 256))
      (fun a ha => by match a, ha with | ⟨0, _⟩, _ => rfl | ⟨1, _⟩, _ => rfl | ⟨2, _⟩, ha => exact absurd rfl ha)
      (by show j.val - 256 + 256 = j.val; omega)

/-- The second result at `(b, v, q)`: the alignment at `(b, q, v)`. -/
theorem alignT_eq (b : Fin 8) (v : Fin 512) (q : Fin 256) :
    val_main_v28 (F := Ideal) x0 x1 x2 x3 x4 x5 (ix3 b v q) = align x0 x1 x2 x3 x4 x5 b q v := by
  have e : idx_main_v28 (ix3 b v q) = ix3 b q v := funext fun a => Fin.ext (by
    match a with | ⟨0, _⟩ => rfl | ⟨1, _⟩ => rfl | ⟨2, _⟩ => rfl)
  rw [val_main_v28_apply, e, align_eq]

/-- The first result as an array is the specification's. -/
theorem out0_eq : val_main_v27 (F := Ideal) x0 x1 x2 x3 x4 x5 = outContext x0 x1 x2 x3 x4 x5 := by
  funext i
  rw [eq_ix3 i]
  exact contextQuery_eq x0 x1 x2 x3 x4 x5 (i 0) (i 1) (i 2)

/-- The second result as an array is the specification's. -/
theorem out1_eq : val_main_v28 (F := Ideal) x0 x1 x2 x3 x4 x5 = outAlign x0 x1 x2 x3 x4 x5 := by
  funext i
  rw [eq_ix3 i]
  exact alignT_eq x0 x1 x2 x3 x4 x5 (i 0) (i 1) (i 2)

end Cert.ReferenceIdeal.RefValue

end
-- ==== Proof.BodyRun.lean ====
/-
  What the kernel's body leaves in its two output blocks, as values.

  The body stages the two projections transposed (features along the rows), clears a 128 × 512 score block, and then
  runs thirty-two trips: trip `k` reads the eight feature rows `8k … 8k + 7` of either projection and adds to the
  score block, entry by entry, the sum over those eight features of `tanh` of the two projections' sum. So the score
  block after `k` trips is given by a recursion over `k`: the cleared block at `0`, and one more accumulation step at
  `k + 1`. Each trip overwrites the whole block, so what is read back after the trips is the last trip's value; the
  output blocks are then the softmax of that score block, transposed, and its product with the values beside the query.
-/
import proofs.«138438_j56710748176622_2_alg».proof.Proof.Gen.KernelIdeal.Frame
import Idealize.ShloMosaic.Lib.Pipeline.Value

set_option maxRecDepth 65536

noncomputable section

namespace Cert.KernelIdeal.BodyRun

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The eight feature rows of the transposed query projection that trip `k` reads. -/
def qRows (P : FVec F S256x128 .f32) (k : Fin k0_t1_loop.trips) : Vec F S8x128 .f32 :=
  fun j => P ((Rect.unit (s := S256x128) (k0_off1 k) S8x128.size (Gen.k0_off1_inb k)).toLoadRect.idx j)

/-- The eight feature rows of the transposed value projection that trip `k` reads. -/
def vRows (P : FVec F S256x512 .f32) (k : Fin k0_t1_loop.trips) : Vec F S8x512 .f32 :=
  fun j => P ((Rect.unit (s := S256x512) (k0_off2 k) S8x512.size (Gen.k0_off2_inb k)).toLoadRect.idx j)

/-- The score block after `k` trips: cleared, then one accumulation step per trip. -/
def scoreAcc (P7 : FVec F S256x128 .f32) (P8 : FVec F S256x512 .f32) : ℕ → FVec F S128x512 .f32
  | 0 => k0_pay9
  | k + 1 => if h : k < k0_t1_loop.trips then k0_pay1 (qRows P7 ⟨k, h⟩) (vRows P8 ⟨k, h⟩) (scoreAcc P7 P8 k)
      else scoreAcc P7 P8 k

theorem scoreAcc_succ (P7 : FVec F S256x128 .f32) (P8 : FVec F S256x512 .f32) (k : Fin k0_t1_loop.trips) :
    scoreAcc P7 P8 (k.val + 1) = k0_pay1 (qRows P7 k) (vRows P8 k) (scoreAcc P7 P8 k.val) := by
  rw [scoreAcc, dif_pos k.isLt]

/-- ONE TRIP'S PIECE: a store of the whole score block, of the accumulation step applied to the trip's rows of the two
    transposed projections and to the score block as the trip finds it. -/
theorem tripL_eq (𝒱 : Variants) (bd : Option 𝒱.V) (c : Dev nD) (i : grid0.Coords) (arg2 : Memref sig .tc .vmem S1x128x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x128x512 .f32) (harg8 : arg8.IsWhole) (arg9 : Memref sig .tc .vmem S1x512x128 .f32) (harg9 : arg9.IsWhole) (arg10 : Memref sig .tc .vmem S256x128 .f32) (harg10 : arg10.IsWhole) (arg11 : Memref sig .tc .vmem S256x512 .f32) (harg11 : arg11.IsWhole) (arg12 : Memref sig .tc .vmem S128x512 .f32) (harg12 : arg12.IsWhole)
    (X_arg10 : BufTy.Contents (Elt F) arg10.view.ty) (X_arg11 : BufTy.Contents (Elt F) arg11.view.ty)
    (k : Fin k0_t1_loop.trips) (f_arg12 : BufTy.Contents (Elt F) arg12.view.ty) :
    tripL_k0_t1 (F := F) 𝒱 c bd i arg2 harg2 arg3 harg3 arg4 harg4 arg5 harg5 arg6 harg6 arg7 harg7 arg8 harg8 arg9 harg9 arg10 harg10 arg11 harg11 arg12 harg12 X_arg10 X_arg11 k f_arg12
      = [⟨Rect.unit (s := S128x512) ![0, 0] S128x512.size inb_S128x512_S128x512_0_0,
          k0_pay1 (View.readAt (Elt F) arg10.view (Rect.unit (s := S256x128) (k0_off1 k) S8x128.size (Gen.k0_off1_inb k)).toLoadRect X_arg10)
            (View.readAt (Elt F) arg11.view (Rect.unit (s := S256x512) (k0_off2 k) S8x512.size (Gen.k0_off2_inb k)).toLoadRect X_arg11)
            (View.readAt (Elt F) arg12.view (Rect.unit (s := S128x512) ![0, 0] S128x512.size inb_S128x512_S128x512_0_0).toLoadRect f_arg12)⟩] := by
  unfold tripL_k0_t1
  unfold trip_k0_t1
  dsimp only

/-- THE SCORE BLOCK BEHIND THE TRIPS' PIECES: over the cleared block, the pieces of the trips before `k` leave the
    score block after `k` trips, when the two scratch buffers the trips read hold the transposed projections whole. -/
theorem canon_pb (𝒱 : Variants) (bd : Option 𝒱.V) (c : Dev nD) (i : grid0.Coords) (arg2 : Memref sig .tc .vmem S1x128x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x128x512 .f32) (harg8 : arg8.IsWhole) (arg9 : Memref sig .tc .vmem S1x512x128 .f32) (harg9 : arg9.IsWhole) (arg10 : Memref sig .tc .vmem S256x128 .f32) (harg10 : arg10.IsWhole) (arg11 : Memref sig .tc .vmem S256x512 .f32) (harg11 : arg11.IsWhole) (arg12 : Memref sig .tc .vmem S128x512 .f32) (harg12 : arg12.IsWhole)
    (P7 : FVec F S256x128 .f32) (P8 : FVec F S256x512 .f32) :
    ∀ k : ℕ, k ≤ k0_t1_loop.trips →
      View.canon (pb_k0_t1 (F := F) 𝒱 c bd i arg2 harg2 arg3 harg3 arg4 harg4 arg5 harg5 arg6 harg6 arg7 harg7 arg8 harg8 arg9 harg9 arg10 harg10 arg11 harg11 arg12 harg12 (arg10.view.writes (Elt F) arg10.view.junk [⟨Rect.unit (s := S256x128) ![0, 0] S256x128.size inb_S256x128_S256x128_0_0, P7⟩]) (arg11.view.writes (Elt F) arg11.view.junk [⟨Rect.unit (s := S256x512) ![0, 0] S256x512.size inb_S256x512_S256x512_0_0, P8⟩]) (arg12.view.writes (Elt F) arg12.view.junk [(⟨Rect.unit (s := S128x512) ![0, 0] S128x512.size inb_S128x512_S128x512_0_0, k0_pay9⟩ : View.Piece (Elt F) S128x512 .f32)]) k ++ [(⟨Rect.unit (s := S128x512) ![0, 0] S128x512.size inb_S128x512_S128x512_0_0, k0_pay9⟩ : View.Piece (Elt F) S128x512 .f32)]) = scoreAcc P7 P8 k := by
  intro k
  induction k with
  | zero =>
    intro _
    show View.canon [(⟨Rect.unit (s := S128x512) ![0, 0] S128x512.size inb_S128x512_S128x512_0_0, k0_pay9⟩ : View.Piece (Elt F) S128x512 .f32)] = _
    exact View.canon_unit_zero hz2 _ _
  | succ k ih =>
    intro hk
    have hlt : k < k0_t1_loop.trips := hk
    have hs := pb_k0_t1_succ (F := F) 𝒱 c bd i arg2 harg2 arg3 harg3 arg4 harg4 arg5 harg5 arg6 harg6 arg7 harg7 arg8 harg8 arg9 harg9 arg10 harg10 arg11 harg11 arg12 harg12 (arg10.view.writes (Elt F) arg10.view.junk [⟨Rect.unit (s := S256x128) ![0, 0] S256x128.size inb_S256x128_S256x128_0_0, P7⟩]) (arg11.view.writes (Elt F) arg11.view.junk [⟨Rect.unit (s := S256x512) ![0, 0] S256x512.size inb_S256x512_S256x512_0_0, P8⟩]) (arg12.view.writes (Elt F) arg12.view.junk [(⟨Rect.unit (s := S128x512) ![0, 0] S128x512.size inb_S128x512_S128x512_0_0, k0_pay9⟩ : View.Piece (Elt F) S128x512 .f32)]) ⟨k, hlt⟩
    rw [show k + 1 = (⟨k, hlt⟩ : Fin k0_t1_loop.trips).val + 1 from rfl, hs, tripL_eq, scoreAcc_succ]
    simp only [List.cons_append, List.nil_append, List.append_assoc]
    rw [View.canon_cons_unit_zero hz2]
    have e10 : View.readAt (Elt F) arg10.view (Rect.unit (s := S256x128) (k0_off1 ⟨k, hlt⟩) S8x128.size (Gen.k0_off1_inb ⟨k, hlt⟩)).toLoadRect (arg10.view.writes (Elt F) arg10.view.junk [⟨Rect.unit (s := S256x128) ![0, 0] S256x128.size inb_S256x128_S256x128_0_0, P7⟩])
        = qRows P7 ⟨k, hlt⟩ := by
      rw [View.readAt_writes_junk_eq_canon]
      funext j
      rw [View.canon_unit_zero hz2]
      rfl
    have e11 : View.readAt (Elt F) arg11.view (Rect.unit (s := S256x512) (k0_off2 ⟨k, hlt⟩) S8x512.size (Gen.k0_off2_inb ⟨k, hlt⟩)).toLoadRect (arg11.view.writes (Elt F) arg11.view.junk [⟨Rect.unit (s := S256x512) ![0, 0] S256x512.size inb_S256x512_S256x512_0_0, P8⟩])
        = vRows P8 ⟨k, hlt⟩ := by
      rw [View.readAt_writes_junk_eq_canon]
      funext j
      rw [View.canon_unit_zero hz2]
      rfl
    have e12 : View.readAt (Elt F) arg12.view (Rect.unit (s := S128x512) ![0, 0] S128x512.size inb_S128x512_S128x512_0_0).toLoadRect
          (arg12.view.writes (Elt F) (arg12.view.writes (Elt F) arg12.view.junk [(⟨Rect.unit (s := S128x512) ![0, 0] S128x512.size inb_S128x512_S128x512_0_0, k0_pay9⟩ : View.Piece (Elt F) S128x512 .f32)]) (pb_k0_t1 (F := F) 𝒱 c bd i arg2 harg2 arg3 harg3 arg4 harg4 arg5 harg5 arg6 harg6 arg7 harg7 arg8 harg8 arg9 harg9 arg10 harg10 arg11 harg11 arg12 harg12 (arg10.view.writes (Elt F) arg10.view.junk [⟨Rect.unit (s := S256x128) ![0, 0] S256x128.size inb_S256x128_S256x128_0_0, P7⟩]) (arg11.view.writes (Elt F) arg11.view.junk [⟨Rect.unit (s := S256x512) ![0, 0] S256x512.size inb_S256x512_S256x512_0_0, P8⟩]) (arg12.view.writes (Elt F) arg12.view.junk [(⟨Rect.unit (s := S128x512) ![0, 0] S128x512.size inb_S128x512_S128x512_0_0, k0_pay9⟩ : View.Piece (Elt F) S128x512 .f32)]) k))
        = scoreAcc P7 P8 k := by
      rw [← View.writes_append, View.readAt_writes_junk_eq_canon, ih (Nat.le_of_lt hlt)]
      funext j
      exact congrArg (scoreAcc P7 P8 k) (funext fun a => Fin.ext (by
        match a with
        | ⟨0, _⟩ => exact (Nat.zero_add _).trans (Nat.one_mul _)
        | ⟨1, _⟩ => exact (Nat.zero_add _).trans (Nat.one_mul _)))
    rw [e10, e11, e12]

/-- The score block the body reads back after its thirty-two trips, as a function of its six input blocks. -/
def scoreBlock (x0 : Vec F S1x128x256 .f32) (x1 : Vec F S1x512x256 .f32) (x2 : Vec F S256x256 .f32) (x3 : Vec F S1x256 .f32) (x4 : Vec F S256x256 .f32) (x5 : Vec F S1x256 .f32) : FVec F S128x512 .f32 :=
  scoreAcc (k0_pay7 x0 x2 x3) (k0_pay8 x1 x4 x5) k0_t1_loop.trips

/-- Reading a whole staging buffer at its contents gives the contents. -/
theorem read3 {S : Shape} (M : Memref sig .tc .vmem S .f32) (hM : M.IsWhole) (off : Fin S.rank → Nat) (hz : off = fun _ => 0)
    (inb : ∀ a, off a + S.size a ≤ S.size a) (x : Vec F S .f32) :
    View.readAt (Elt F) M.view (Rect.unit off S.size inb).toLoadRect (hM.unread x) = x := by
  rw [View.readAt_eq_ld, hM.read_unread, View.ld_unit_zero hz]

/-- THE FIRST OUTPUT BLOCK'S PIECES: one store of the whole block, of the context beside the query tile. -/
theorem pieces6 (c : Dev nD) (i : grid0.Coords) (arg2 : Memref sig .tc .vmem S1x128x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x128x512 .f32) (harg8 : arg8.IsWhole) (arg9 : Memref sig .tc .vmem S1x512x128 .f32) (harg9 : arg9.IsWhole) (arg10 : Memref sig .tc .vmem S256x128 .f32) (harg10 : arg10.IsWhole) (arg11 : Memref sig .tc .vmem S256x512 .f32) (harg11 : arg11.IsWhole) (arg12 : Memref sig .tc .vmem S128x512 .f32) (harg12 : arg12.IsWhole) (x0 : Vec F S1x128x256 .f32) (x1 : Vec F S1x512x256 .f32) (x2 : Vec F S256x256 .f32) (x3 : Vec F S1x256 .f32) (x4 : Vec F S256x256 .f32) (x5 : Vec F S1x256 .f32) :
    (kernelRun0_A c i arg2 harg2 arg3 harg3 arg4 harg4 arg5 harg5 arg6 harg6 arg7 harg7 arg8 harg8 arg9 harg9 arg10 harg10 arg11 harg11 arg12 harg12 x0 x1 x2 x3 x4 x5).1
      = [⟨Rect.unit (s := S1x128x512) ![0, 0, 0] S1x128x512.size inb_S1x128x512_S1x128x512_0_0_0,
          k0_pay3 (k0_pay5 x0) (k0_pay6 x1) (scoreBlock x0 x1 x2 x3 x4 x5)⟩] := by
  unfold kernelRun0_A
  dsimp only
  sl_unfold_run_names
  rw [read3 arg2 harg2 _ hz3, read3 arg3 harg3 _ hz3, read3 arg4 harg4 _ hz2, read3 arg5 harg5 _ hz2,
    read3 arg6 harg6 _ hz2, read3 arg7 harg7 _ hz2]
  rw [View.readAt_writes_junk_eq_canon]
  have hc := canon_pb (F := F) Variants.none none c i arg2 harg2 arg3 harg3 arg4 harg4 arg5 harg5 arg6 harg6 arg7 harg7 arg8 harg8 arg9 harg9 arg10 harg10 arg11 harg11 arg12 harg12 (k0_pay7 x0 x2 x3) (k0_pay8 x1 x4 x5) k0_t1_loop.trips (Nat.le_refl _)
  refine congrArg (fun s : FVec F S128x512 .f32 => [(⟨Rect.unit (s := S1x128x512) ![0, 0, 0] S1x128x512.size inb_S1x128x512_S1x128x512_0_0_0,
    k0_pay3 (k0_pay5 x0) (k0_pay6 x1) s⟩ : View.Piece (Elt F) S1x128x512 .f32)]) ?_
  funext j
  exact (congrFun hc _).trans (congrArg (scoreAcc (k0_pay7 x0 x2 x3) (k0_pay8 x1 x4 x5) k0_t1_loop.trips) (funext fun a => Fin.ext (by
      match a with
      | ⟨0, _⟩ => exact (Nat.zero_add _).trans (Nat.one_mul _)
      | ⟨1, _⟩ => exact (Nat.zero_add _).trans (Nat.one_mul _))))

/-- THE SECOND OUTPUT BLOCK'S PIECES: one store of the whole block, of the alignment transposed. -/
theorem pieces7 (c : Dev nD) (i : grid0.Coords) (arg2 : Memref sig .tc .vmem S1x128x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x128x512 .f32) (harg8 : arg8.IsWhole) (arg9 : Memref sig .tc .vmem S1x512x128 .f32) (harg9 : arg9.IsWhole) (arg10 : Memref sig .tc .vmem S256x128 .f32) (harg10 : arg10.IsWhole) (arg11 : Memref sig .tc .vmem S256x512 .f32) (harg11 : arg11.IsWhole) (arg12 : Memref sig .tc .vmem S128x512 .f32) (harg12 : arg12.IsWhole) (x0 : Vec F S1x128x256 .f32) (x1 : Vec F S1x512x256 .f32) (x2 : Vec F S256x256 .f32) (x3 : Vec F S1x256 .f32) (x4 : Vec F S256x256 .f32) (x5 : Vec F S1x256 .f32) :
    (kernelRun0_A c i arg2 harg2 arg3 harg3 arg4 harg4 arg5 harg5 arg6 harg6 arg7 harg7 arg8 harg8 arg9 harg9 arg10 harg10 arg11 harg11 arg12 harg12 x0 x1 x2 x3 x4 x5).2.1
      = [⟨Rect.unit (s := S1x512x128) ![0, 0, 0] S1x512x128.size inb_S1x512x128_S1x512x128_0_0_0,
          k0_pay4 (scoreBlock x0 x1 x2 x3 x4 x5)⟩] := by
  unfold kernelRun0_A
  dsimp only
  sl_unfold_run_names
  rw [read3 arg2 harg2 _ hz3, read3 arg3 harg3 _ hz3, read3 arg4 harg4 _ hz2, read3 arg5 harg5 _ hz2,
    read3 arg6 harg6 _ hz2, read3 arg7 harg7 _ hz2]
  rw [View.readAt_writes_junk_eq_canon]
  have hc := canon_pb (F := F) Variants.none none c i arg2 harg2 arg3 harg3 arg4 harg4 arg5 harg5 arg6 harg6 arg7 harg7 arg8 harg8 arg9 harg9 arg10 harg10 arg11 harg11 arg12 harg12 (k0_pay7 x0 x2 x3) (k0_pay8 x1 x4 x5) k0_t1_loop.trips (Nat.le_refl _)
  refine congrArg (fun s : FVec F S128x512 .f32 => [(⟨Rect.unit (s := S1x512x128) ![0, 0, 0] S1x512x128.size inb_S1x512x128_S1x512x128_0_0_0,
    k0_pay4 s⟩ : View.Piece (Elt F) S1x512x128 .f32)]) ?_
  funext j
  exact (congrFun hc _).trans (congrArg (scoreAcc (k0_pay7 x0 x2 x3) (k0_pay8 x1 x4 x5) k0_t1_loop.trips) (funext fun a => Fin.ext (by
      match a with
      | ⟨0, _⟩ => exact (Nat.zero_add _).trans (Nat.one_mul _)
      | ⟨1, _⟩ => exact (Nat.zero_add _).trans (Nat.one_mul _))))

/-- WHAT THE BODY LEAVES IN THE FIRST OUTPUT BLOCK: the context beside the query tile, of the score block. -/
theorem out6_eq (c : Dev nD) (i : grid0.Coords) (arg2 : Memref sig .tc .vmem S1x128x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x128x512 .f32) (harg8 : arg8.IsWhole) (arg9 : Memref sig .tc .vmem S1x512x128 .f32) (harg9 : arg9.IsWhole) (arg10 : Memref sig .tc .vmem S256x128 .f32) (harg10 : arg10.IsWhole) (arg11 : Memref sig .tc .vmem S256x512 .f32) (harg11 : arg11.IsWhole) (arg12 : Memref sig .tc .vmem S128x512 .f32) (harg12 : arg12.IsWhole) (x0 : Vec F S1x128x256 .f32) (x1 : Vec F S1x512x256 .f32) (x2 : Vec F S256x256 .f32) (x3 : Vec F S1x256 .f32) (x4 : Vec F S256x256 .f32) (x5 : Vec F S1x256 .f32) :
    out0_A_6 c i arg2 harg2 arg3 harg3 arg4 harg4 arg5 harg5 arg6 harg6 arg7 harg7 arg8 harg8 arg9 harg9 arg10 harg10 arg11 harg11 arg12 harg12 x0 x1 x2 x3 x4 x5 = k0_pay3 (k0_pay5 x0) (k0_pay6 x1) (scoreBlock x0 x1 x2 x3 x4 x5) := by
  unfold out0_A_6
  rw [View.read_writes_eq_canon _ _ _ (fun y => cover0_A_6 c i arg2 harg2 arg3 harg3 arg4 harg4 arg5 harg5 arg6 harg6 arg7 harg7 arg8 harg8 arg9 harg9 arg10 harg10 arg11 harg11 arg12 harg12 x0 x1 x2 x3 x4 x5 y), pieces6,
    View.canon_unit_zero hz3]

/-- WHAT THE BODY LEAVES IN THE SECOND OUTPUT BLOCK: the alignment of the score block, transposed. -/
theorem out7_eq (c : Dev nD) (i : grid0.Coords) (arg2 : Memref sig .tc .vmem S1x128x256 .f32) (harg2 : arg2.IsWhole) (arg3 : Memref sig .tc .vmem S1x512x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x128x512 .f32) (harg8 : arg8.IsWhole) (arg9 : Memref sig .tc .vmem S1x512x128 .f32) (harg9 : arg9.IsWhole) (arg10 : Memref sig .tc .vmem S256x128 .f32) (harg10 : arg10.IsWhole) (arg11 : Memref sig .tc .vmem S256x512 .f32) (harg11 : arg11.IsWhole) (arg12 : Memref sig .tc .vmem S128x512 .f32) (harg12 : arg12.IsWhole) (x0 : Vec F S1x128x256 .f32) (x1 : Vec F S1x512x256 .f32) (x2 : Vec F S256x256 .f32) (x3 : Vec F S1x256 .f32) (x4 : Vec F S256x256 .f32) (x5 : Vec F S1x256 .f32) :
    out0_A_7 c i arg2 harg2 arg3 harg3 arg4 harg4 arg5 harg5 arg6 harg6 arg7 harg7 arg8 harg8 arg9 harg9 arg10 harg10 arg11 harg11 arg12 harg12 x0 x1 x2 x3 x4 x5 = k0_pay4 (scoreBlock x0 x1 x2 x3 x4 x5) := by
  unfold out0_A_7
  rw [View.read_writes_eq_canon _ _ _ (fun y => cover0_A_7 c i arg2 harg2 arg3 harg3 arg4 harg4 arg5 harg5 arg6 harg6 arg7 harg7 arg8 harg8 arg9 harg9 arg10 harg10 arg11 harg11 arg12 harg12 x0 x1 x2 x3 x4 x5 y), pieces7,
    View.canon_unit_zero hz3]

end Cert.KernelIdeal.BodyRun

end
-- ==== Proof.Payload.lean ====
/-
  The body's pure payloads read at an index, over the extended reals.

  Each payload is a short chain of vector operations; read at literal coordinates it is: for the transposed projections,
  the dense layer's output (a product into a zero accumulator is the plain sum over the contracted axis, the changes of
  float format are the identity, the bias row is broadcast over the rows); for one trip's accumulation, the found score
  plus the sum over the trip's eight feature rows of `tanh` of the two projections' sum; for the softmax, the exponential
  of the score less the row's maximum, over the sum of the row's such exponentials; for the first output block, the
  softmax row against a column of the values below column 256 and the query tile from column 256 on; for the second, the
  softmax transposed.
-/
import proofs.«138438_j56710748176622_2_alg».proof.Proof.Gen.KernelIdeal.Skeleton
import proofs.«138438_j56710748176622_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Cert.Additive
open Idealize.ShloMosaic Idealize.ShloMosaic.ValueIdx

/-! ## The three matrix products -/

theorem mmQ_lhs0 (j : S128x256.Idx) (q : dot_S128x256_S256x256_S128x256_1_0_0_1_n_n.contr.Idx) : (dot_S128x256_S256x256_S128x256_1_0_0_1_n_n.lhsIdx j q 0).val = (j 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
theorem mmQ_lhs1 (j : S128x256.Idx) (q : dot_S128x256_S256x256_S128x256_1_0_0_1_n_n.contr.Idx) : (dot_S128x256_S256x256_S128x256_1_0_0_1_n_n.lhsIdx j q 1).val = (q ⟨0, by decide⟩).val :=
  dot_S128x256_S256x256_S128x256_1_0_0_1_n_n.lhsIdx_val_of_single rfl j q
theorem mmQ_rhs0 (j : S128x256.Idx) (q : dot_S128x256_S256x256_S128x256_1_0_0_1_n_n.contr.Idx) : (dot_S128x256_S256x256_S128x256_1_0_0_1_n_n.rhsIdx j q 0).val = (q ⟨0, by decide⟩).val :=
  dot_S128x256_S256x256_S128x256_1_0_0_1_n_n.rhsIdx_val_of_single rfl j q
theorem mmQ_rhs1 (j : S128x256.Idx) (q : dot_S128x256_S256x256_S128x256_1_0_0_1_n_n.contr.Idx) : (dot_S128x256_S256x256_S128x256_1_0_0_1_n_n.rhsIdx j q 1).val = (j 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl

/-- The 128 × 256 by 256 × 256 product into a zero accumulator, at `(p, e)`: the sum over the contracted axis. -/
theorem mmQ_apply {φ₁ φ₂ : FTy} (l : FVec Ideal S128x256 φ₁) (r : FVec Ideal S256x256 φ₂) (p : Fin 128) (e : Fin 256) :
    matmul dot_S128x256_S256x256_S128x256_1_0_0_1_n_n none l r (constant (F := Ideal) S128x256 .f32 0x00000000#32) (ix2 p e)
      = ∑ d : Fin 256, l (ix2 p d) * r (ix2 d e) := by
  simp only [matmul]
  rw [Ideal.matmul_constant_zero_apply, ← Equiv.sum_comp (contrEquiv1 dot_S128x256_S256x256_S128x256_1_0_0_1_n_n 256 rfl rfl).symm]
  refine Finset.sum_congr rfl fun k _ => ?_
  have hk := contrEquiv1_symm_val dot_S128x256_S256x256_S128x256_1_0_0_1_n_n 256 rfl rfl k
  have el : dot_S128x256_S256x256_S128x256_1_0_0_1_n_n.lhsIdx (ix2 p e) ((contrEquiv1 dot_S128x256_S256x256_S128x256_1_0_0_1_n_n 256 rfl rfl).symm k) = ix2 p k := funext fun a => Fin.ext (by
    match a with
    | ⟨0, _⟩ => exact mmQ_lhs0 _ _
    | ⟨1, _⟩ => exact (mmQ_lhs1 _ _).trans hk)
  have er : dot_S128x256_S256x256_S128x256_1_0_0_1_n_n.rhsIdx (ix2 p e) ((contrEquiv1 dot_S128x256_S256x256_S128x256_1_0_0_1_n_n 256 rfl rfl).symm k) = ix2 k e := funext fun a => Fin.ext (by
    match a with
    | ⟨0, _⟩ => exact (mmQ_rhs0 _ _).trans hk
    | ⟨1, _⟩ => exact mmQ_rhs1 _ _)
  rw [el, er]

theorem mmV_lhs0 (j : S512x256.Idx) (q : dot_S512x256_S256x256_S512x256_1_0_0_1_n_n.contr.Idx) : (dot_S512x256_S256x256_S512x256_1_0_0_1_n_n.lhsIdx j q 0).val = (j 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem mmV_lhs1 (j : S512x256.Idx) (q : dot_S512x256_S256x256_S512x256_1_0_0_1_n_n.contr.Idx) : (dot_S512x256_S256x256_S512x256_1_0_0_1_n_n.lhsIdx j q 1).val = (q ⟨0, by decide⟩).val :=
  dot_S512x256_S256x256_S512x256_1_0_0_1_n_n.lhsIdx_val_of_single rfl j q
theorem mmV_rhs0 (j : S512x256.Idx) (q : dot_S512x256_S256x256_S512x256_1_0_0_1_n_n.contr.Idx) : (dot_S512x256_S256x256_S512x256_1_0_0_1_n_n.rhsIdx j q 0).val = (q ⟨0, by decide⟩).val :=
  dot_S512x256_S256x256_S512x256_1_0_0_1_n_n.rhsIdx_val_of_single rfl j q
theorem mmV_rhs1 (j : S512x256.Idx) (q : dot_S512x256_S256x256_S512x256_1_0_0_1_n_n.contr.Idx) : (dot_S512x256_S256x256_S512x256_1_0_0_1_n_n.rhsIdx j q 1).val = (j 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The 512 × 256 by 256 × 256 product into a zero accumulator, at `(p, e)`: the sum over the contracted axis. -/
theorem mmV_apply {φ₁ φ₂ : FTy} (l : FVec Ideal S512x256 φ₁) (r : FVec Ideal S256x256 φ₂) (p : Fin 512) (e : Fin 256) :
    matmul dot_S512x256_S256x256_S512x256_1_0_0_1_n_n none l r (constant (F := Ideal) S512x256 .f32 0x00000000#32) (ix2 p e)
      = ∑ d : Fin 256, l (ix2 p d) * r (ix2 d e) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p e) ((contrEquiv1 dot_S512x256_S256x256_S512x256_1_0_0_1_n_n 256 rfl rfl).symm k) = ix2 p k := funext fun a => Fin.ext (by
    match a with
    | ⟨0, _⟩ => exact mmV_lhs0 _ _
    | ⟨1, _⟩ => exact (mmV_lhs1 _ _).trans hk)
  have er : dot_S512x256_S256x256_S512x256_1_0_0_1_n_n.rhsIdx (ix2 p e) ((contrEquiv1 dot_S512x256_S256x256_S512x256_1_0_0_1_n_n 256 rfl rfl).symm k) = ix2 k e := funext fun a => Fin.ext (by
    match a with
    | ⟨0, _⟩ => exact (mmV_rhs0 _ _).trans hk
    | ⟨1, _⟩ => exact mmV_rhs1 _ _)
  rw [el, er]

theorem mmC_lhs0 (j : S128x256.Idx) (q : dot_S128x512_S512x256_S128x256_1_0_0_1_n_n.contr.Idx) : (dot_S128x512_S512x256_S128x256_1_0_0_1_n_n.lhsIdx j q 0).val = (j 0).val := by
  unfold DotDims.lhsIdx
  rw [dif_neg (show ¬(0 : Fin S128x512.rank) ∈ dot_S128x512_S512x256_S128x256_1_0_0_1_n_n.lhsBatch by decide), dif_pos (show (0 : Fin S128x512.rank) ∈ dot_S128x512_S512x256_S128x256_1_0_0_1_n_n.lhsNonContracting by decide)]
  rfl
theorem mmC_lhs1 (j : S128x256.Idx) (q : dot_S128x512_S512x256_S128x256_1_0_0_1_n_n.contr.Idx) : (dot_S128x512_S512x256_S128x256_1_0_0_1_n_n.lhsIdx j q 1).val = (q ⟨0, by decide⟩).val :=
  dot_S128x512_S512x256_S128x256_1_0_0_1_n_n.lhsIdx_val_of_single rfl j q
theorem mmC_rhs0 (j : S128x256.Idx) (q : dot_S128x512_S512x256_S128x256_1_0_0_1_n_n.contr.Idx) : (dot_S128x512_S512x256_S128x256_1_0_0_1_n_n.rhsIdx j q 0).val = (q ⟨0, by decide⟩).val :=
  dot_S128x512_S512x256_S128x256_1_0_0_1_n_n.rhsIdx_val_of_single rfl j q
theorem mmC_rhs1 (j : S128x256.Idx) (q : dot_S128x512_S512x256_S128x256_1_0_0_1_n_n.contr.Idx) : (dot_S128x512_S512x256_S128x256_1_0_0_1_n_n.rhsIdx j q 1).val = (j 1).val := by
  unfold DotDims.rhsIdx
  rw [dif_neg (show ¬(1 : Fin S512x256.rank) ∈ dot_S128x512_S512x256_S128x256_1_0_0_1_n_n.rhsBatch by decide), dif_pos (show (1 : Fin S512x256.rank) ∈ dot_S128x512_S512x256_S128x256_1_0_0_1_n_n.rhsNonContracting by decide)]
  rfl

/-- The 128 × 512 by 512 × 256 product into a zero accumulator, at `(p, e)`: the sum over the contracted axis. -/
theorem mmC_apply {φ₁ φ₂ : FTy} (l : FVec Ideal S128x512 φ₁) (r : FVec Ideal S512x256 φ₂) (p : Fin 128) (e : Fin 256) :
    matmul dot_S128x512_S512x256_S128x256_1_0_0_1_n_n none l r (constant (F := Ideal) S128x256 .f32 0x00000000#32) (ix2 p e)
      = ∑ d : Fin 512, l (ix2 p d) * r (ix2 d e) := by
  simp only [matmul]
  rw [Ideal.matmul_constant_zero_apply, ← Equiv.sum_comp (contrEquiv1 dot_S128x512_S512x256_S128x256_1_0_0_1_n_n 512 rfl rfl).symm]
  refine Finset.sum_congr rfl fun k _ => ?_
  have hk := contrEquiv1_symm_val dot_S128x512_S512x256_S128x256_1_0_0_1_n_n 512 rfl rfl k
  have el : dot_S128x512_S512x256_S128x256_1_0_0_1_n_n.lhsIdx (ix2 p e) ((contrEquiv1 dot_S128x512_S512x256_S128x256_1_0_0_1_n_n 512 rfl rfl).symm k) = ix2 p k := funext fun a => Fin.ext (by
    match a with
    | ⟨0, _⟩ => exact mmC_lhs0 _ _
    | ⟨1, _⟩ => exact (mmC_lhs1 _ _).trans hk)
  have er : dot_S128x512_S512x256_S128x256_1_0_0_1_n_n.rhsIdx (ix2 p e) ((contrEquiv1 dot_S128x512_S512x256_S128x256_1_0_0_1_n_n 512 rfl rfl).symm k) = ix2 k e := funext fun a => Fin.ext (by
    match a with
    | ⟨0, _⟩ => exact (mmC_rhs0 _ _).trans hk
    | ⟨1, _⟩ => exact mmC_rhs1 _ _)
  rw [el, er]

/-! ## The tiles and the transposed projections -/

/-- The query tile at `(p, d)`. -/
theorem pay5_apply (x0 : Vec Ideal S1x128x256 .f32) (p : Fin 128) (d : Fin 256) :
    k0_pay5 x0 (ix2 p d) = x0 (ix3 (0 : Fin 1) p d) := by
  unfold k0_pay5
  exact shapeCast_1ab_ab_apply x0 _ p d

/-- The values of the batch at `(v, d)`. -/
theorem pay6_apply (x1 : Vec Ideal S1x512x256 .f32) (v : Fin 512) (d : Fin 256) :
    k0_pay6 x1 (ix2 v d) = x1 (ix3 (0 : Fin 1) v d) := by
  unfold k0_pay6
  exact shapeCast_1ab_ab_apply x1 _ v d

/-- The transposed query projection at feature `e`, row `p` of the tile. -/
theorem pay7_apply (x0 : Vec Ideal S1x128x256 .f32) (x2 : Vec Ideal S256x256 .f32) (x3 : Vec Ideal S1x256 .f32)
    (e : Fin 256) (p : Fin 128) :
    k0_pay7 x0 x2 x3 (ix2 e p) = (∑ d : Fin 256, x0 (ix3 (0 : Fin 1) p d) * x2 (ix2 d e)) + x3 (ix2 (0 : Fin 1) e) := by
  unfold k0_pay7
  rw [shapeCast_self, shapeCast_self]
  refine (transpose_ix2_apply _ _ e p).trans ?_
  rw [addf_apply, mmQ_apply, broadcastTo_1b_ab_apply]
  refine congrArg (· + _) (Finset.sum_congr rfl fun d _ => ?_)
  rw [truncf_apply, truncf_apply, pay5_apply]

/-- The transposed value projection at feature `e`, value row `v`. -/
theorem pay8_apply (x1 : Vec Ideal S1x512x256 .f32) (x4 : Vec Ideal S256x256 .f32) (x5 : Vec Ideal S1x256 .f32)
    (e : Fin 256) (v : Fin 512) :
    k0_pay8 x1 x4 x5 (ix2 e v) = (∑ d : Fin 256, x1 (ix3 (0 : Fin 1) v d) * x4 (ix2 d e)) + x5 (ix2 (0 : Fin 1) e) := by
  unfold k0_pay8
  rw [shapeCast_self, shapeCast_self]
  refine (transpose_ix2_apply _ _ e v).trans ?_
  rw [addf_apply, mmV_apply, broadcastTo_1b_ab_apply]
  refine congrArg (· + _) (Finset.sum_congr rfl fun d _ => ?_)
  rw [truncf_apply, truncf_apply, pay6_apply]

/-- The cleared score block. -/
theorem pay9_apply (p : Fin 128) (v : Fin 512) : k0_pay9 (F := Ideal) (ix2 p v) = 0 := by
  unfold k0_pay9
  rw [shapeCast_self]
  exact Ideal.ofBits_zero_f32

/-! ## Layout pieces: a column kept as a unit axis, and a unit axis broadcast -/

/-- The word `0xFF800000` is minus infinity, the least extended real. -/
theorem ofBits_negInf : Ideal.ofBits .f32 0xFF800000#32 = ⊥ := by simp [Ideal.ofBits, Ideal.ieee]

/-- A 128-vector cast to a column and broadcast over 512 lanes reads, at `(p, v)`, the vector at `p`. -/
theorem col_bcast_apply {α : Type} (y : S128.Idx → α) (h1 : S128.ShapeCasts S128x1) (h2 : S128x1.Broadcasts S128x512)
    (p : Fin 128) (v : Fin 512) :
    broadcastTo S128x512 (shapeCast S128x1 y h1) h2 (ix2 p v) = y (ix1 p) := by
  refine (broadcastTo_apply _ h2 (ix2 p v) (ix2 p (0 : Fin 1)) fun a => ?_).trans ?_
  · match a with
    | ⟨0, _⟩ => rfl
    | ⟨1, _⟩ => rfl
  · refine shapeCast_apply y h1 _ (ix1 p) ?_
    rw [Shape.rowMajor_val_one, Shape.rowMajor_val_two]
    show p.val = p.val * 1 + 0
    omega

/-- Eight rows of 128, each entry broadcast over 512 lanes: at `(i, p, v)` the entry `(i, p)`. -/
theorem rows_bcast_q {α : Type} (y : S8x128.Idx → α) (h1 : S8x128.ShapeCasts S8x128x1) (h2 : S8x128x1.Broadcasts S8x128x512)
    (i : Fin 8) (p : Fin 128) (v : Fin 512) :
    broadcastTo S8x128x512 (shapeCast S8x128x1 y h1) h2 (ix3 i p v) = y (ix2 i p) := by
  refine (broadcastTo_apply _ h2 (ix3 i p v) (ix3 i p (0 : Fin 1)) fun a => ?_).trans ?_
  · match a with
    | ⟨0, _⟩ => rfl
    | ⟨1, _⟩ => rfl
    | ⟨2, _⟩ => rfl
  · refine shapeCast_apply y h1 _ (ix2 i p) ?_
    rw [Shape.rowMajor_val_two, Shape.rowMajor_val_three]
    show i.val * 128 + p.val = (i.val * 128 + p.val) * 1 + 0
    omega

/-- Eight rows of 512, each row broadcast over 128 sublanes: at `(i, p, v)` the entry `(i, v)`. -/
theorem rows_bcast_v {α : Type} (y : S8x512.Idx → α) (h1 : S8x512.ShapeCasts S8x1x512) (h2 : S8x1x512.Broadcasts S8x128x512)
    (i : Fin 8) (p : Fin 128) (v : Fin 512) :
    broadcastTo S8x128x512 (shapeCast S8x1x512 y h1) h2 (ix3 i p v) = y (ix2 i v) := by
  refine (broadcastTo_apply _ h2 (ix3 i p v) (ix3 i (0 : Fin 1) v) fun a => ?_).trans ?_
  · match a with
    | ⟨0, _⟩ => rfl
    | ⟨1, _⟩ => rfl
    | ⟨2, _⟩ => rfl
  · refine shapeCast_apply y h1 _ (ix2 i v) ?_
    rw [Shape.rowMajor_val_two, Shape.rowMajor_val_three]
    show i.val * 512 + v.val = (i.val * 1 + 0) * 512 + v.val
    omega

/-! ## One trip's accumulation, the softmax, and the two output blocks -/

/-- One trip: the found score plus the sum over the trip's eight feature rows of `tanh` of the projections' sum. -/
theorem pay1_apply (v57 : Vec Ideal S8x128 .f32) (v59 : Vec Ideal S8x512 .f32) (v67 : Vec Ideal S128x512 .f32)
    (p : Fin 128) (v : Fin 512) :
    k0_pay1 v57 v59 v67 (ix2 p v) = v67 (ix2 p v) + ∑ i : Fin 8, Ideal.tanh (v57 (ix2 i p) + v59 (ix2 i v)) := by
  unfold k0_pay1
  rw [shapeCast_self, addf_apply]
  refine congrArg (v67 (ix2 p v) + ·) ?_
  refine (Ideal.multiReduction_add_single _ 0x00000000#32 reduces_S8x128x512_S128x512 (.inl rfl) rfl (ix2 p v)).trans ?_
  refine Finset.sum_congr rfl fun (i : Fin 8) _ => ?_
  have e : reduces_S8x128x512_S128x512.lift (ix2 p v) i = ix3 i p v := funext fun a => Fin.ext (by
    match a with | ⟨0, _⟩ => rfl | ⟨1, _⟩ => rfl | ⟨2, _⟩ => rfl)
  rw [e]
  show Ideal.tanh (_ + _) = _
  rw [rows_bcast_q, rows_bcast_v]

/-- A row maximum: the lane reduction by `max` from minus infinity, at row `p`, is the maximum of the row. -/
theorem rowmax_apply (S : FVec Ideal S128x512 .f32) (hφ : FKind.Formats .f32)
    (hacc : (0xFF800000#32 : BitVec 32) = FKind.maximumf.neutral .f32 hφ) (p : Fin 128) :
    multiReduction (F := Ideal) .maximumf [1] S128 S 0xFF800000#32 reduces_S128x512_S128 hφ hacc (ix1 p)
      = rowMax (fun v' => S (ix2 p v')) := by
  refine (Ideal.multiReduction_maximumf_single S 0xFF800000#32 reduces_S128x512_S128 hφ hacc (ix1 p)).trans ?_
  have e : (S ∘ reduces_S128x512_S128.lift (ix1 p)) = fun v' : Fin 512 => S (ix2 p v') := funext fun v' => by
    show S (reduces_S128x512_S128.lift (ix1 p) v') = _
    exact congrArg S (funext fun a => Fin.ext (by match a with | ⟨0, _⟩ => rfl | ⟨1, _⟩ => rfl))
  rw [e]
  show (Finset.univ : Finset (Fin 512)).fold max (Ideal.ofBits .f32 0xFF800000#32) _ = _
  rw [ofBits_negInf]
  rfl

/-- A row sum: the lane reduction by `+`, at row `p`, is the sum of the row. -/
theorem rowsum_apply (E : FVec Ideal S128x512 .f32) (hφ : FKind.Formats .f32)
    (hacc : (0x00000000#32 : BitVec 32) = FKind.add.neutral .f32 hφ) (p : Fin 128) :
    multiReduction (F := Ideal) .add [1] S128 E 0x00000000#32 reduces_S128x512_S128 hφ hacc (ix1 p)
      = ∑ v' : Fin 512, E (ix2 p v') := by
  refine (Ideal.multiReduction_add_single E 0x00000000#32 reduces_S128x512_S128 hφ hacc (ix1 p)).trans ?_
  refine Finset.sum_congr rfl fun (k : Fin 512) _ => ?_
  exact congrArg E (funext fun a => Fin.ext (by match a with | ⟨0, _⟩ => rfl | ⟨1, _⟩ => rfl))

/-- The exponential of a score less its row's maximum, the maximum given as any 128-vector `M`. -/
theorem expShift_apply (S : FVec Ideal S128x512 .f32) (M : FVec Ideal S128 .f32) (p : Fin 128) (v : Fin 512) :
    exp (subf S (broadcastTo S128x512 (shapeCast S128x1 M shapeCasts_S128_S128x1) broadcasts_S128x1_S128x512)) (ix2 p v)
      = Ideal.exp (S (ix2 p v) - M (ix1 p)) := by
  show Ideal.exp (S (ix2 p v) - _) = _
  rw [col_bcast_apply]

/-- The softmax of the score block at `(p, v)`: the softmax of row `p` at `v`. -/
theorem pay2_apply (S : Vec Ideal S128x512 .f32) (p : Fin 128) (v : Fin 512) :
    k0_pay2 S (ix2 p v) = softmaxRow (fun v' => S (ix2 p v')) v := by
  unfold k0_pay2 softmaxRow
  rw [divf_apply, expShift_apply, col_bcast_apply]
  beta_reduce
  refine congrArg₂ Ideal.div (congrArg (fun m => Ideal.exp (S (ix2 p v) - m)) (rowmax_apply _ _ _ p)) ?_
  refine (rowsum_apply _ _ _ p).trans (Finset.sum_congr rfl fun v' _ => ?_)
  exact (expShift_apply _ _ p v').trans (congrArg (fun m => Ideal.exp (S (ix2 p v') - m)) (rowmax_apply _ _ _ p))

/-- The first output block at `(0, p, j)`: below column 256 the softmax row against column `j` of the values, from
    column 256 on the query tile at column `j - 256`. -/
theorem pay3_apply (v1 : FVec Ideal S128x256 .f32) (v3 : FVec Ideal S512x256 .f32) (S : Vec Ideal S128x512 .f32)
    (p : Fin 128) (j : Fin 512) :
    k0_pay3 v1 v3 S (ix3 (0 : Fin 1) p j)
      = if h : j.val < 256 then ∑ v : Fin 512, k0_pay2 S (ix2 p v) * v3 (ix2 v (⟨j.val, h⟩ : Fin 256))
        else v1 (ix2 p (⟨j.val - 256, by have := j.isLt; omega⟩ : Fin 256)) := by
  unfold k0_pay3
  rw [shapeCast_ab_1ab_apply]
  by_cases h : j.val < 256
  · rw [dif_pos h]
    refine (concatenate_pair_apply_left (t := S128x512) (s₁ := S128x256) (s₂ := S128x256) (1 : Fin 2) _ _
      concatenates_S128x256_S128x256_S128x512_d1 (ix2 p j) rfl (ix2 p (⟨j.val, h⟩ : Fin 256))
      (fun a => by match a with | ⟨0, _⟩ => rfl | ⟨1, _⟩ => rfl)).trans ?_
    rw [mmC_apply]
    refine Finset.sum_congr rfl fun d _ => ?_
    rw [truncf_apply, truncf_apply]
  · rw [dif_neg h]
    have hj := j.isLt
    exact concatenate_pair_apply_right (t := S128x512) (s₁ := S128x256) (s₂ := S128x256) (1 : Fin 2) _ _
      concatenates_S128x256_S128x256_S128x512_d1 (ix2 p j) rfl rfl (ix2 p (⟨j.val - 256, by omega⟩ : Fin 256))
      (fun a ha => by match a, ha with | ⟨0, _⟩, _ => rfl | ⟨1, _⟩, ha => exact absurd rfl ha)
      (by show j.val - 256 + 256 = j.val; omega)

/-- The second output block at `(0, v, p)`: the softmax at `(p, v)`. -/
theorem pay4_apply (S : Vec Ideal S128x512 .f32) (v : Fin 512) (p : Fin 128) :
    k0_pay4 S (ix3 (0 : Fin 1) v p) = k0_pay2 S (ix2 p v) := by
  unfold k0_pay4
  rw [shapeCast_ab_1ab_apply]
  exact transpose_ix2_apply _ _ v p

end Cert.KernelIdeal.Payload

end
-- ==== Proof.ScoreValue.lean ====
/-
  The score block after the thirty-two trips, at an index, is the single sum over all 256 features.

  Trip `k` adds, at `(p, v)`, the sum over the eight features `8k … 8k + 7` of `tanh` of the two transposed projections'
  entries; the block starts at zero. So after `k` trips the entry is the sum over the features below `8k`, and after all
  thirty-two it is the sum over the 256 features: only the grouping of one finite sum differs, which is the same on the
  extended reals as on any commutative monoid.
-/
import proofs.«138438_j56710748176622_2_alg».proof.Proof.BodyRun
import proofs.«138438_j56710748176622_2_alg».proof.Proof.Payload

noncomputable section

namespace Cert.KernelIdeal.ScoreValue

open Cert.KernelIdeal Cert.KernelIdeal.Gen Cert.KernelIdeal.BodyRun Cert.KernelIdeal.Payload Cert.Additive
open Idealize.ShloMosaic Idealize.ShloMosaic.ValueIdx

/-- The loop makes thirty-two trips. -/
theorem trips_eq : k0_t1_loop.trips = 32 := by decide +kernel

variable (P7 : FVec Ideal S256x128 .f32) (P8 : FVec Ideal S256x512 .f32)

/-- Feature `n`'s term of the score at `(p, v)` (zero past the last feature). -/
def term (p : Fin 128) (v : Fin 512) (n : ℕ) : EReal :=
  if h : n < 256 then Ideal.tanh (P7 (ix2 (⟨n, h⟩ : Fin 256) p) + P8 (ix2 (⟨n, h⟩ : Fin 256) v)) else 0

/-- Row `i` of the eight the trip reads of the transposed query projection is feature row `8k + i`. -/
theorem qRows_apply (k : Fin k0_t1_loop.trips) (i : Fin 8) (p : Fin 128) (h : 8 * k.val + i.val < 256) :
    qRows P7 k (ix2 i p) = P7 (ix2 (⟨8 * k.val + i.val, h⟩ : Fin 256) p) := by
  unfold qRows
  have ho := Gen.k0_off1_eq k
  refine congrArg P7 (funext fun a => Fin.ext ?_)
  match a with
  | ⟨0, _⟩ =>
    show k0_off1 k (0 : Fin 2) + 1 * i.val = 8 * k.val + i.val
    rw [ho]
    show 8 * k.val + 1 * i.val = 8 * k.val + i.val
    omega
  | ⟨1, _⟩ =>
    show k0_off1 k (1 : Fin 2) + 1 * p.val = p.val
    rw [ho]
    show 0 + 1 * p.val = p.val
    omega

/-- The same for the transposed value projection. -/
theorem vRows_apply (k : Fin k0_t1_loop.trips) (i : Fin 8) (v : Fin 512) (h : 8 * k.val + i.val < 256) :
    vRows P8 k (ix2 i v) = P8 (ix2 (⟨8 * k.val + i.val, h⟩ : Fin 256) v) := by
  unfold vRows
  have ho := Gen.k0_off2_eq k
  refine congrArg P8 (funext fun a => Fin.ext ?_)
  match a with
  | ⟨0, _⟩ =>
    show k0_off2 k (0 : Fin 2) + 1 * i.val = 8 * k.val + i.val
    rw [ho]
    show 8 * k.val + 1 * i.val = 8 * k.val + i.val
    omega
  | ⟨1, _⟩ =>
    show k0_off2 k (1 : Fin 2) + 1 * v.val = v.val
    rw [ho]
    show 0 + 1 * v.val = v.val
    omega

/-- After `k` trips the score at `(p, v)` is the sum of the terms of the features below `8k`. -/
theorem scoreAcc_apply (p : Fin 128) (v : Fin 512) :
    ∀ k : ℕ, k ≤ 32 → scoreAcc P7 P8 k (ix2 p v) = ∑ n ∈ Finset.range (8 * k), term P7 P8 p v n := by
  intro k
  induction k with
  | zero =>
    intro _
    show k0_pay9 (F := Ideal) (ix2 p v) = _
    rw [pay9_apply, Nat.mul_zero, Finset.range_zero, Finset.sum_empty]
  | succ k ih =>
    intro hk
    have hlt : k < k0_t1_loop.trips := by rw [trips_eq]; omega
    have hs : scoreAcc P7 P8 (k + 1) = k0_pay1 (qRows P7 ⟨k, hlt⟩) (vRows P8 ⟨k, hlt⟩) (scoreAcc P7 P8 k) :=
      scoreAcc_succ P7 P8 ⟨k, hlt⟩
    rw [hs, pay1_apply, ih (by omega), show 8 * (k + 1) = 8 * k + 8 from by omega, Finset.sum_range_add]
    refine congrArg (_ + ·) ?_
    rw [Finset.sum_range]
    refine Finset.sum_congr rfl fun (i : Fin 8) _ => ?_
    have hi : 8 * k + i.val < 256 := by have := i.isLt; omega
    rw [qRows_apply P7 ⟨k, hlt⟩ i p hi, vRows_apply P8 ⟨k, hlt⟩ i v hi]
    unfold term
    rw [dif_pos hi]

/-- After all the trips: the sum over the 256 features. -/
theorem scoreAcc_trips (p : Fin 128) (v : Fin 512) :
    scoreAcc P7 P8 k0_t1_loop.trips (ix2 p v) = ∑ e : Fin 256, Ideal.tanh (P7 (ix2 e p) + P8 (ix2 e v)) := by
  rw [trips_eq, scoreAcc_apply P7 P8 p v 32 (Nat.le_refl _), show 8 * 32 = 256 from rfl, Finset.sum_range]
  refine Finset.sum_congr rfl fun e _ => ?_
  unfold term
  rw [dif_pos e.isLt]

end Cert.KernelIdeal.ScoreValue

end
-- ==== Proof.BlockValue.lean ====
/-
  One grid point's two output blocks are the specification's blocks.

  Suppose the six input blocks of a grid point are the stated pieces of the argument arrays: the query tile is 128
  consecutive query rows `row p` of batch `b`, the value block is all of batch `b`'s values, the two weights are whole,
  and the two bias rows are the biases. Then the score block is the score of those query rows against the batch's value
  rows, its softmax is the alignment, and so the first output block is the first result's rows `row p` of batch `b` and the
  second output block is the second result's columns `row p` of batch `b`.
-/
import proofs.«138438_j56710748176622_2_alg».proof.Proof.ScoreValue

noncomputable section

namespace Cert.KernelIdeal.BlockValue

open Cert.KernelIdeal Cert.KernelIdeal.Gen Cert.KernelIdeal.BodyRun Cert.KernelIdeal.Payload Cert.KernelIdeal.ScoreValue
open Cert.Additive Idealize.ShloMosaic Idealize.ShloMosaic.ValueIdx

variable (Q : (⟨3, ![8, 256, 256]⟩ : Shape).Idx → EReal) (V : (⟨3, ![8, 512, 256]⟩ : Shape).Idx → EReal)
  (W1 : (⟨2, ![256, 256]⟩ : Shape).Idx → EReal) (b1 : (⟨1, ![256]⟩ : Shape).Idx → EReal)
  (W2 : (⟨2, ![256, 256]⟩ : Shape).Idx → EReal) (b2 : (⟨1, ![256]⟩ : Shape).Idx → EReal)
  (x0 : Vec Ideal S1x128x256 .f32) (x1 : Vec Ideal S1x512x256 .f32) (x2 : Vec Ideal S256x256 .f32)
  (x3 : Vec Ideal S1x256 .f32) (x4 : Vec Ideal S256x256 .f32) (x5 : Vec Ideal S1x256 .f32)
  (b : Fin 8) (row : Fin 128 → Fin 256)
  (h0 : ∀ (p : Fin 128) (d : Fin 256), x0 (ix3 (0 : Fin 1) p d) = Q (ix3 b (row p) d))
  (h1 : ∀ (v : Fin 512) (d : Fin 256), x1 (ix3 (0 : Fin 1) v d) = V (ix3 b v d))
  (h2 : ∀ (d e : Fin 256), x2 (ix2 d e) = W1 (ix2 d e))
  (h3 : ∀ e : Fin 256, x3 (ix2 (0 : Fin 1) e) = b1 (ix1 e))
  (h4 : ∀ (d e : Fin 256), x4 (ix2 d e) = W2 (ix2 d e))
  (h5 : ∀ e : Fin 256, x5 (ix2 (0 : Fin 1) e) = b2 (ix1 e))

include h0 h1 h2 h3 h4 h5

/-- The score block at `(p, v)` is the score of query row `row p` against value row `v` of batch `b`. -/
theorem score_blk (p : Fin 128) (v : Fin 512) :
    scoreBlock x0 x1 x2 x3 x4 x5 (ix2 p v) = score Q V W1 b1 W2 b2 b (row p) v := by
  unfold scoreBlock
  rw [scoreAcc_trips]
  unfold score addScore qproj vproj dense
  refine Finset.sum_congr rfl fun e _ => ?_
  rw [pay7_apply, pay8_apply, h3, h5]
  have hq : (∑ d : Fin 256, x0 (ix3 (0 : Fin 1) p d) * x2 (ix2 d e)) = ∑ d : Fin 256, Q (ix3 b (row p) d) * W1 (ix2 d e) :=
    Finset.sum_congr rfl fun d _ => by rw [h0, h2]
  have hv : (∑ d : Fin 256, x1 (ix3 (0 : Fin 1) v d) * x4 (ix2 d e)) = ∑ d : Fin 256, V (ix3 b v d) * W2 (ix2 d e) :=
    Finset.sum_congr rfl fun d _ => by rw [h1, h4]
  rw [hq, hv]

/-- The softmax of the score block at `(p, v)` is the alignment of query row `row p` at value row `v`. -/
theorem align_blk (p : Fin 128) (v : Fin 512) :
    k0_pay2 (scoreBlock x0 x1 x2 x3 x4 x5) (ix2 p v) = align Q V W1 b1 W2 b2 b (row p) v := by
  rw [pay2_apply]
  unfold align
  exact congrArg (fun s => softmaxRow s v)
    (funext fun v' => score_blk Q V W1 b1 W2 b2 x0 x1 x2 x3 x4 x5 b row h0 h1 h2 h3 h4 h5 p v')

/-- THE FIRST OUTPUT BLOCK at `y` is the first result at the array index `i` it is written to. -/
theorem out6_blk (y : S1x128x512.Idx) (i : S8x256x512.Idx)
    (e0 : (i 0).val = b.val) (e1 : (i 1).val = (row (y 1)).val) (e2 : (i 2).val = (y 2).val) :
    k0_pay3 (k0_pay5 x0) (k0_pay6 x1) (scoreBlock x0 x1 x2 x3 x4 x5) y = outContext Q V W1 b1 W2 b2 i := by
  obtain ⟨p, j, rfl⟩ : ∃ (p : Fin 128) (j : Fin 512), y = ix3 (0 : Fin 1) p j :=
    ⟨y 1, y 2, (eq_ix3 y).trans (congrArg (fun u => ix3 u (y 1) (y 2)) (Fin.fin_one_eq_zero (y 0)))⟩
  have hi : i = ix3 b (row p) j := funext fun a => Fin.ext (by
    match a with | ⟨0, _⟩ => exact e0 | ⟨1, _⟩ => exact e1 | ⟨2, _⟩ => exact e2)
  rw [hi, outContext_ix3, pay3_apply]
  unfold contextQuery
  by_cases h : j.val < 256
  · rw [dif_pos h, dif_pos h]
    unfold context
    refine Finset.sum_congr rfl fun v _ => ?_
    rw [align_blk Q V W1 b1 W2 b2 x0 x1 x2 x3 x4 x5 b row h0 h1 h2 h3 h4 h5, pay6_apply, h1]
  · rw [dif_neg h, dif_neg h, pay5_apply, h0]

/-- THE SECOND OUTPUT BLOCK at `y` is the second result at the array index `i` it is written to. -/
theorem out7_blk (y : S1x512x128.Idx) (i : S8x512x256.Idx)
    (e0 : (i 0).val = b.val) (e1 : (i 1).val = (y 1).val) (e2 : (i 2).val = (row (y 2)).val) :
    k0_pay4 (scoreBlock x0 x1 x2 x3 x4 x5) y = outAlign Q V W1 b1 W2 b2 i := by
  obtain ⟨v, p, rfl⟩ : ∃ (v : Fin 512) (p : Fin 128), y = ix3 (0 : Fin 1) v p :=
    ⟨y 1, y 2, (eq_ix3 y).trans (congrArg (fun u => ix3 u (y 1) (y 2)) (Fin.fin_one_eq_zero (y 0)))⟩
  have hi : i = ix3 b v (row p) := funext fun a => Fin.ext (by
    match a with | ⟨0, _⟩ => exact e0 | ⟨1, _⟩ => exact e1 | ⟨2, _⟩ => exact e2)
  rw [hi, outAlign_ix3, pay4_apply]
  exact align_blk Q V W1 b1 W2 b2 x0 x1 x2 x3 x4 x5 b row h0 h1 h2 h3 h4 h5 p v

end Cert.KernelIdeal.BlockValue

end
-- ==== Proof.Blocks.lean ====
/-
  From the blocks to the two result arrays.

  The grid has sixteen points `(b, qi)`: eight batches, two tiles of 128 query rows. At a point the query window's block
  is rows `128·qi … 128·qi + 127` of batch `b`, the value window's block is all of batch `b`, the weights are whole, and
  the bias rows are the biases reshaped to one row; the first output window's block is rows `128·qi …` of batch `b` of the
  first result, the second's is columns `128·qi …` of batch `b` of the second. Every point writes both blocks back, the
  blocks of either output tile its array, and what a point writes back is the specification's block; so after the run
  each result array is the specification's array.
-/
import proofs.«138438_j56710748176622_2_alg».proof.Proof.Gen.KernelIdeal.Value
import proofs.«138438_j56710748176622_2_alg».proof.Proof.BlockValue
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen Cert.KernelIdeal.BodyRun Cert.KernelIdeal.BlockValue Cert.Additive
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The first result array the specification gives for core `c`'s arguments. -/
def outC (c : Dev nD) : S8x256x512.Idx → EReal := outContext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The second result array the specification gives for core `c`'s arguments. -/
def outA (c : Dev nD) : S8x512x256.Idx → EReal := outAlign (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The printed index maps, decided over the sixteen points: the query and the first output move together on the batch
    and tile axes, the values follow the batch, the weights and biases stay, and the second output has the tile on its
    last axis. -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0
    ∧ win0_1.index t (0 : Fin 3) = win0_6.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (2 : Fin 3) = 0 ∧ win0_6.index t (0 : Fin 3) < 8 ∧ win0_6.index t (1 : Fin 3) < 2
    ∧ win0_7.index t (0 : Fin 3) = win0_6.index t (0 : Fin 3) ∧ win0_7.index t (1 : Fin 3) = 0
    ∧ win0_7.index t (2 : Fin 3) = win0_6.index t (1 : Fin 3) :=
  (by decide +kernel : ∀ t : Fin grid0.N, _)

/-- Every pair (batch, tile) is some point's. -/
theorem idx_onto : ∀ (q0 : Fin 8) (q1 : Fin 2), ∃ t : Fin cfg0.N,
    win0_6.index t (0 : Fin 3) = q0.val ∧ win0_6.index t (1 : Fin 3) = q1.val :=
  (by decide +kernel : ∀ (q0 : Fin 8) (q1 : Fin 2), ∃ t : Fin grid0.N,
    win0_6.index t (0 : Fin 3) = q0.val ∧ win0_6.index t (1 : Fin 3) = q1.val)

/-! ## The input blocks at a point -/

theorem blk0 (c : Dev nD) (t : Fin cfg0.N) (hb : win0_6.index t (0 : Fin 3) < 8) (hq : win0_6.index t (1 : Fin 3) < 2)
    (p : Fin 128) (d : Fin 256) :
    iblk m c 0 t (ix3 (0 : Fin 1) p d) = (m ((c : Thread nD τ).loc main_arg0)) (ix3 (⟨win0_6.index t (0 : Fin 3), hb⟩ : Fin 8) ((fun p : Fin 128 => (⟨win0_6.index t (1 : Fin 3) * 128 + p.val, by have := p.isLt; omega⟩ : Fin 256)) p) d) := by
  obtain ⟨f00, f01, f02, f10, f11, f12, f20, f21, f30, f31, f40, f41, f50, f51, f62, hb, hq, f70, f71, f72⟩ := idx_facts t
  show V m c main_arg0 (((cfg0.win 0).blk t).view.emb (ix3 (0 : Fin 1) p d)) = _
  rw [V_main_arg0]
  refine congrArg (m ((c : Thread nD τ).loc main_arg0)) (funext fun a => Fin.ext ?_)
  match a with
  | ⟨0, _⟩ => show win0_0.index t (0 : Fin 3) * 1 + 1 * 0 = win0_6.index t (0 : Fin 3); omega
  | ⟨1, _⟩ => show win0_0.index t (1 : Fin 3) * 128 + 1 * p.val = win0_6.index t (1 : Fin 3) * 128 + p.val; omega
  | ⟨2, _⟩ => show win0_0.index t (2 : Fin 3) * 256 + 1 * d.val = d.val; omega

theorem blk1 (c : Dev nD) (t : Fin cfg0.N) (hb : win0_6.index t (0 : Fin 3) < 8) (v : Fin 512) (d : Fin 256) :
    iblk m c 1 t (ix3 (0 : Fin 1) v d) = (m ((c : Thread nD τ).loc main_arg1)) (ix3 (⟨win0_6.index t (0 : Fin 3), hb⟩ : Fin 8) v d) := by
  obtain ⟨f00, f01, f02, f10, f11, f12, f20, f21, f30, f31, f40, f41, f50, f51, f62, -, -, f70, f71, f72⟩ := idx_facts t
  show V m c main_arg1 (((cfg0.win 1).blk t).view.emb (ix3 (0 : Fin 1) v d)) = _
  rw [V_main_arg1]
  refine congrArg (m ((c : Thread nD τ).loc main_arg1)) (funext fun a => Fin.ext ?_)
  match a with
  | ⟨0, _⟩ => show win0_1.index t (0 : Fin 3) * 1 + 1 * 0 = win0_6.index t (0 : Fin 3); omega
  | ⟨1, _⟩ => show win0_1.index t (1 : Fin 3) * 512 + 1 * v.val = v.val; omega
  | ⟨2, _⟩ => show win0_1.index t (2 : Fin 3) * 256 + 1 * d.val = d.val; omega

theorem blk2 (c : Dev nD) (t : Fin cfg0.N) (d e : Fin 256) :
    iblk m c 2 t (ix2 d e) = (m ((c : Thread nD τ).loc main_arg2)) (ix2 d e) := by
  obtain ⟨f00, f01, f02, f10, f11, f12, f20, f21, f30, f31, f40, f41, f50, f51, f62, -, -, f70, f71, f72⟩ := idx_facts t
  show V m c main_arg2 (((cfg0.win 2).blk t).view.emb (ix2 d e)) = _
  rw [V_main_arg2]
  refine congrArg (m ((c : Thread nD τ).loc main_arg2)) (funext fun a => Fin.ext ?_)
  match a with
  | ⟨0, _⟩ => show win0_2.index t (0 : Fin 2) * 256 + 1 * d.val = d.val; omega
  | ⟨1, _⟩ => show win0_2.index t (1 : Fin 2) * 256 + 1 * e.val = e.val; omega

theorem blk4 (c : Dev nD) (t : Fin cfg0.N) (d e : Fin 256) :
    iblk m c 4 t (ix2 d e) = (m ((c : Thread nD τ).loc main_arg4)) (ix2 d e) := by
  obtain ⟨f00, f01, f02, f10, f11, f12, f20, f21, f30, f31, f40, f41, f50, f51, f62, -, -, f70, f71, f72⟩ := idx_facts t
  show V m c main_arg4 (((cfg0.win 4).blk t).view.emb (ix2 d e)) = _
  rw [V_main_arg4]
  refine congrArg (m ((c : Thread nD τ).loc main_arg4)) (funext fun a => Fin.ext ?_)
  match a with
  | ⟨0, _⟩ => show win0_4.index t (0 : Fin 2) * 256 + 1 * d.val = d.val; omega
  | ⟨1, _⟩ => show win0_4.index t (1 : Fin 2) * 256 + 1 * e.val = e.val; omega

/-- The first bias as the region finds it: the 256-vector reshaped to one row. -/
theorem V_bias1 (c : Dev nD) :
    (V m c main_v0 : S1x256.Idx → EReal) = shapeCast S1x256 (m ((c : Thread nD τ).loc main_arg3)) shapeCasts_S256_S1x256 := by
  dsimp only [Gen.V, Gen.hostOps0]; after_results; rfl

/-- The second bias as the region finds it. -/
theorem V_bias2 (c : Dev nD) :
    (V m c main_v1 : S1x256.Idx → EReal) = shapeCast S1x256 (m ((c : Thread nD τ).loc main_arg5)) shapeCasts_S256_S1x256 := by
  dsimp only [Gen.V, Gen.hostOps0]; after_results; rfl

theorem blk3 (c : Dev nD) (t : Fin cfg0.N) (e : Fin 256) :
    iblk m c 3 t (ix2 (0 : Fin 1) e) = (m ((c : Thread nD τ).loc main_arg3)) (ix1 e) := by
  obtain ⟨f00, f01, f02, f10, f11, f12, f20, f21, f30, f31, f40, f41, f50, f51, f62, -, -, f70, f71, f72⟩ := idx_facts t
  have he : ((cfg0.win 3).blk t).view.emb (ix2 (0 : Fin 1) e) = ix2 (0 : Fin 1) e := funext fun a => Fin.ext (by
    match a with
    | ⟨0, _⟩ => show win0_3.index t (0 : Fin 2) * 1 + 1 * 0 = 0; omega
    | ⟨1, _⟩ => show win0_3.index t (1 : Fin 2) * 256 + 1 * e.val = e.val; omega)
  show V m c main_v0 (((cfg0.win 3).blk t).view.emb (ix2 (0 : Fin 1) e)) = _
  rw [he, V_bias1]
  exact shapeCast_a_1a_apply _ _ (0 : Fin 1) e

theorem blk5 (c : Dev nD) (t : Fin cfg0.N) (e : Fin 256) :
    iblk m c 5 t (ix2 (0 : Fin 1) e) = (m ((c : Thread nD τ).loc main_arg5)) (ix1 e) := by
  obtain ⟨f00, f01, f02, f10, f11, f12, f20, f21, f30, f31, f40, f41, f50, f51, f62, -, -, f70, f71, f72⟩ := idx_facts t
  have he : ((cfg0.win 5).blk t).view.emb (ix2 (0 : Fin 1) e) = ix2 (0 : Fin 1) e := funext fun a => Fin.ext (by
    match a with
    | ⟨0, _⟩ => show win0_5.index t (0 : Fin 2) * 1 + 1 * 0 = 0; omega
    | ⟨1, _⟩ => show win0_5.index t (1 : Fin 2) * 256 + 1 * e.val = e.val; omega)
  show V m c main_v1 (((cfg0.win 5).blk t).view.emb (ix2 (0 : Fin 1) e)) = _
  rw [he, V_bias2]
  exact shapeCast_a_1a_apply _ _ (0 : Fin 1) e

/-! ## What a point writes back -/

/-- WHAT POINT `t` WRITES BACK to the first result is block `t` of the specification's first array. -/
theorem flushed6_eq (c : Dev nD) (t : Fin cfg0.N) :
    (dats m 0 c).flushed 6 t = ((cfg0.win 6).blk t).view.read (Elt Ideal) (outC m c) := by
  obtain ⟨f00, f01, f02, f10, f11, f12, f20, f21, f30, f31, f40, f41, f50, f51, f62, hb, hq, f70, f71, f72⟩ := idx_facts t
  rw [Cert.KernelIdeal.Value.flushed6_A, out6_eq]
  funext y
  show k0_pay3 (k0_pay5 (iblk m c 0 t)) (k0_pay6 (iblk m c 1 t)) (scoreBlock (iblk m c 0 t) (iblk m c 1 t) (iblk m c 2 t) (iblk m c 3 t) (iblk m c 4 t) (iblk m c 5 t)) y
    = outC m c (((cfg0.win 6).blk t).view.emb y)
  have hy0 : (y 0).val < 1 := (y 0).isLt
  exact out6_blk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (iblk m c 0 t) (iblk m c 1 t) (iblk m c 2 t) (iblk m c 3 t) (iblk m c 4 t) (iblk m c 5 t) (⟨win0_6.index t (0 : Fin 3), hb⟩ : Fin 8) (fun p : Fin 128 => (⟨win0_6.index t (1 : Fin 3) * 128 + p.val, by have := p.isLt; omega⟩ : Fin 256)) (blk0 m c t hb hq) (blk1 m c t hb) (blk2 m c t) (blk3 m c t) (blk4 m c t) (blk5 m c t) y (((cfg0.win 6).blk t).view.emb y)
    (by show win0_6.index t (0 : Fin 3) * 1 + 1 * (y 0).val = win0_6.index t (0 : Fin 3); omega)
    (by show win0_6.index t (1 : Fin 3) * 128 + 1 * (y 1).val = win0_6.index t (1 : Fin 3) * 128 + (y 1).val; omega)
    (by show win0_6.index t (2 : Fin 3) * 512 + 1 * (y 2).val = (y 2).val; omega)

/-- WHAT POINT `t` WRITES BACK to the second result is block `t` of the specification's second array. -/
theorem flushed7_eq (c : Dev nD) (t : Fin cfg0.N) :
    (dats m 0 c).flushed 7 t = ((cfg0.win 7).blk t).view.read (Elt Ideal) (outA m c) := by
  obtain ⟨f00, f01, f02, f10, f11, f12, f20, f21, f30, f31, f40, f41, f50, f51, f62, hb, hq, f70, f71, f72⟩ := idx_facts t
  rw [Cert.KernelIdeal.Value.flushed7_A, out7_eq]
  funext y
  show k0_pay4 (scoreBlock (iblk m c 0 t) (iblk m c 1 t) (iblk m c 2 t) (iblk m c 3 t) (iblk m c 4 t) (iblk m c 5 t)) y = outA m c (((cfg0.win 7).blk t).view.emb y)
  have hy0 : (y 0).val < 1 := (y 0).isLt
  exact out7_blk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (iblk m c 0 t) (iblk m c 1 t) (iblk m c 2 t) (iblk m c 3 t) (iblk m c 4 t) (iblk m c 5 t) (⟨win0_6.index t (0 : Fin 3), hb⟩ : Fin 8) (fun p : Fin 128 => (⟨win0_6.index t (1 : Fin 3) * 128 + p.val, by have := p.isLt; omega⟩ : Fin 256)) (blk0 m c t hb hq) (blk1 m c t hb) (blk2 m c t) (blk3 m c t) (blk4 m c t) (blk5 m c t) y (((cfg0.win 7).blk t).view.emb y)
    (by show win0_7.index t (0 : Fin 3) * 1 + 1 * (y 0).val = win0_6.index t (0 : Fin 3); omega)
    (by show win0_7.index t (1 : Fin 3) * 512 + 1 * (y 1).val = (y 1).val; omega)
    (by show win0_7.index t (2 : Fin 3) * 128 + 1 * (y 2).val = win0_6.index t (1 : Fin 3) * 128 + (y 2).val; omega)

/-! ## The blocks tile the arrays -/

theorem mem_blk6 (t : Fin cfg0.N) (i : S8x256x512.Idx) :
    i ∈ ((cfg0.win 6).blk t).view.set ↔ ∀ a : Fin 3, win0_6.index t a * S1x128x512.size a ≤ (i a).val
      ∧ (i a).val < win0_6.index t a * S1x128x512.size a + S1x128x512.size a := by
  show i ∈ ((View.whole main_v2_0).slice (win0_6.rect t)).set ↔ _
  rw [View.set_slice_whole, Rect.mem_set_unit]
  exact Iff.rfl

theorem mem_blk7 (t : Fin cfg0.N) (i : S8x512x256.Idx) :
    i ∈ ((cfg0.win 7).blk t).view.set ↔ ∀ a : Fin 3, win0_7.index t a * S1x512x128.size a ≤ (i a).val
      ∧ (i a).val < win0_7.index t a * S1x512x128.size a + S1x512x128.size a := by
  show i ∈ ((View.whole main_v2_1).slice (win0_7.rect t)).set ↔ _
  rw [View.set_slice_whole, Rect.mem_set_unit]
  exact Iff.rfl

/-- Every index of the first result is in some point's block: batch `i 0`, tile `(i 1) / 128`. -/
theorem cover6 (i : S8x256x512.Idx) :
    ∃ t : Fin cfg0.N, (cfg0.win 6).flush t = true ∧ i ∈ ((cfg0.win 6).blk t).view.set := by
  have hi0 : (i 0).val < 8 := (i 0).isLt
  have hi1 : (i 1).val < 256 := (i 1).isLt
  have hi2 : (i 2).val < 512 := (i 2).isLt
  obtain ⟨t, ht0, ht1⟩ := idx_onto ⟨(i 0).val, hi0⟩ ⟨(i 1).val / 128, by omega⟩
  have ht0' : win0_6.index t (0 : Fin 3) = (i 0).val := ht0
  have ht1' : win0_6.index t (1 : Fin 3) = (i 1).val / 128 := ht1
  obtain ⟨f00, f01, f02, f10, f11, f12, f20, f21, f30, f31, f40, f41, f50, f51, f62, hb, hq, f70, f71, f72⟩ := idx_facts t
  refine ⟨t, flush0_6 t, ?_⟩
  rw [mem_blk6]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 128 ≤ (i 1).val ∧ (i 1).val < win0_6.index t (1 : Fin 3) * 128 + 128
    omega
  | ⟨2, _⟩ =>
    show win0_6.index t (2 : Fin 3) * 512 ≤ (i 2).val ∧ (i 2).val < win0_6.index t (2 : Fin 3) * 512 + 512
    omega

/-- Every index of the second result is in some point's block: batch `i 0`, tile `(i 2) / 128`. -/
theorem cover7 (i : S8x512x256.Idx) :
    ∃ t : Fin cfg0.N, (cfg0.win 7).flush t = true ∧ i ∈ ((cfg0.win 7).blk t).view.set := by
  have hi0 : (i 0).val < 8 := (i 0).isLt
  have hi1 : (i 1).val < 512 := (i 1).isLt
  have hi2 : (i 2).val < 256 := (i 2).isLt
  obtain ⟨t, ht0, ht1⟩ := idx_onto ⟨(i 0).val, hi0⟩ ⟨(i 2).val / 128, by omega⟩
  have ht0' : win0_6.index t (0 : Fin 3) = (i 0).val := ht0
  have ht1' : win0_6.index t (1 : Fin 3) = (i 2).val / 128 := ht1
  obtain ⟨f00, f01, f02, f10, f11, f12, f20, f21, f30, f31, f40, f41, f50, f51, f62, hb, hq, f70, f71, f72⟩ := idx_facts t
  refine ⟨t, flush0_7 t, ?_⟩
  rw [mem_blk7]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 512 ≤ (i 1).val ∧ (i 1).val < win0_7.index t (1 : Fin 3) * 512 + 512
    omega
  | ⟨2, _⟩ =>
    show win0_7.index t (2 : Fin 3) * 128 ≤ (i 2).val ∧ (i 2).val < win0_7.index t (2 : Fin 3) * 128 + 128
    omega

/-! ## The arrays after the run, and the run -/

theorem final6 (c : Dev nD) : (dats m 0 c).arrAt 6 cfg0.N = outC m c :=
  (dats m 0 c).arrAt_eq_of_cover 6 (outC m c) (fun t _ => flushed6_eq m c t) cover6

theorem final7 (c : Dev nD) : (dats m 0 c).arrAt 7 cfg0.N = outA m c :=
  (dats m 0 c).arrAt_eq_of_cover 7 (outA m c) (fun t _ => flushed7_eq m c t) cover7

/-- THE KERNEL'S RUN: every weakly fair execution terminates with the two results at the specification's arrays of the
    arguments, and the arguments unchanged. -/
theorem run : θ_run defs (onTc (τ := τ) (main (F := Ideal))) ⟨m, fun _ => 0, ρ⟩ fun r => ∀ c : Dev nD,
      r.2.mem ((c : Thread nD τ).loc main_v2_0) = outC m c
      ∧ r.2.mem ((c : Thread nD τ).loc main_v2_1) = outA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Cert.KernelIdeal.Value.run_blocks m ρ)

end Cert.KernelIdeal.Blocks

end
-- ==== Proof.lean ====
/-
  Additive attention computed tile by tile equals additive attention computed whole, over the extended reals.

  The kernel takes sixteen grid points (eight batches, two tiles of 128 query rows). At each it projects its query tile
  and its batch's values by the two dense layers, accumulates the additive score `∑ e, tanh (q_e + v_e)` in thirty-two
  trips of eight features, takes the softmax of each score row with the row's maximum subtracted, multiplies by the
  values, and writes the context beside the query tile, and the alignment transposed. The reference does the same on
  whole arrays: one sum over all 256 features, the same softmax, one batched product, one concatenation, one transpose.

  Both sides are the same function of the arguments, index by index (Proof/Spec.lean): the tile's score is the
  reference's score because a finite sum may be grouped in eights; the products into a zero accumulator, the changes of
  float format and the zero initial values of the reductions are the identity; the reference's extra `max` with minus
  infinity changes nothing. None of this needs the inputs finite, so the precondition is never opened.

  The three frames: the two kernel programs' are the generated frame certificates; the reference's is its run with the
  results dropped. The ideal pass rewrote nothing, so there is nothing to preserve.
-/
import proofs.«138438_j56710748176622_2_alg».proof.Defs
import proofs.«138438_j56710748176622_2_alg».proof.Proof.Gen.Kernel
import proofs.«138438_j56710748176622_2_alg».proof.Proof.Gen.Kernel.Skeleton
import proofs.«138438_j56710748176622_2_alg».proof.Proof.Gen.Kernel.Loops
import proofs.«138438_j56710748176622_2_alg».proof.Proof.Gen.Kernel.Launch
import proofs.«138438_j56710748176622_2_alg».proof.Proof.Gen.Kernel.Points
import proofs.«138438_j56710748176622_2_alg».proof.Proof.Gen.Kernel.Frame
import proofs.«138438_j56710748176622_2_alg».proof.Proof.Gen.KernelIdeal
import proofs.«138438_j56710748176622_2_alg».proof.Proof.Gen.KernelIdeal.Skeleton
import proofs.«138438_j56710748176622_2_alg».proof.Proof.Gen.KernelIdeal.Loops
import proofs.«138438_j56710748176622_2_alg».proof.Proof.Gen.KernelIdeal.Launch
import proofs.«138438_j56710748176622_2_alg».proof.Proof.Gen.KernelIdeal.Points
import proofs.«138438_j56710748176622_2_alg».proof.Proof.Gen.KernelIdeal.Frame
import proofs.«138438_j56710748176622_2_alg».proof.Proof.Gen.ReferenceIdeal
import proofs.«138438_j56710748176622_2_alg».proof.Proof.Gen.Pre_finite_inputs
import proofs.«138438_j56710748176622_2_alg».proof.Proof.Gen.KernelIdeal.Value
import proofs.«138438_j56710748176622_2_alg».proof.Proof.RefRead
import proofs.«138438_j56710748176622_2_alg».proof.Proof.RefValue
import proofs.«138438_j56710748176622_2_alg».proof.Proof.Blocks
import Idealize.ShloMosaic.Adequacy
import Idealize.ShloMosaic.Init

noncomputable section

namespace Cert.Proof

open Idealize.ShloMosaic Idealize.SL.Sem Cert.Kernel

/-- The word-level kernel runs and leaves its arguments: the generated frame certificate. -/
theorem frame_k : Cert.frame_Kernel := fun m ρ _ => Cert.Kernel.Gen.frame m ρ

/-- The idealized kernel runs and leaves its arguments: the generated frame certificate. -/
theorem frame_ki : Cert.frame_KernelIdeal := fun m ρ _ => Cert.KernelIdeal.Gen.frame m ρ

/-- The reference runs and leaves its arguments: its run, the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- From memories agreeing on the arguments both programs end with the specification's two arrays of those arguments:
    the kernel's by its blocks, the reference's stage by stage. -/
theorem algebraic : Cert.algebraic_KernelIdeal_ReferenceIdeal := by
  intro m ρ m' ρ' _ hagree
  refine ⟨fun c => Cert.KernelIdeal.Blocks.outC m c, fun c => Cert.KernelIdeal.Blocks.outA m c,
    Cert.KernelIdeal.Blocks.run m ρ, ?_⟩
  refine (θ_run Cert.ReferenceIdeal.defs _ _).mono (fun _ h c => ⟨?_, ?_, (h c).2.2⟩)
    (Cert.ReferenceIdeal.ValueP.run (F := Ideal) m' ρ')
  · obtain ⟨a0, a1, a2, a3, a4, a5⟩ := hagree c
    refine (h c).1.trans ?_
    rw [Cert.ReferenceIdeal.ReadP.val_main_v27_eq, Cert.ReferenceIdeal.RefValue.out0_eq, a0, a1, a2, a3, a4, a5]
    rfl
  · obtain ⟨a0, a1, a2, a3, a4, a5⟩ := hagree c
    refine (h c).2.1.trans ?_
    rw [Cert.ReferenceIdeal.ReadP.val_main_v28_eq, Cert.ReferenceIdeal.RefValue.out1_eq, a0, a1, a2, a3, a4, a5]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
